-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x64 : Shape := ⟨2, ![16384, 64]⟩
abbrev S_ : Shape := ⟨0, ![]⟩

class Facts : Prop where
  bcast_S_S16384x64 : S_.BroadcastsInDim S16384x64 (![] : Fin 0 → Fin S16384x64.rank)
  reducesTo_S16384x64_S_d0_1 : S16384x64.ReducesTo [0, 1] S_
  h_S_ : 0 < S_.numel

variable [Facts]

def fn {F : FTy → Type} [FloatOps F] (main_arg0 : FVec F S16384x64 .f32) (main_arg1 : FVec F S16384x64 .f32) : IVec S_ 1 :=
  let main_v0 : FVec F S16384x64 .f32 := Host.absf main_arg0
  let main_cst : FVec F S_ .f32 := constant S_ .f32 0x7F800000#32
  let main_v1 : FVec F S16384x64 .f32 := broadcastInDim S16384x64 ![] bcast_S_S16384x64 main_cst
  let main_v2 : IVec S16384x64 1 := cmpf .olt main_v0 main_v1
  let main_c : IVec S_ 1 := constantI S_ 1 1#1
  let main_v3 : IVec S_ 1 := (fun x v => Host.reduce IntOp.andi x v reducesTo_S16384x64_S_d0_1 h_S_) main_v2 main_c
  let main_v4 : FVec F S16384x64 .f32 := Host.absf main_arg1
  let main_cst_0 : FVec F S_ .f32 := constant S_ .f32 0x7F800000#32
  let main_v5 : FVec F S16384x64 .f32 := broadcastInDim S16384x64 ![] bcast_S_S16384x64 main_cst_0
  let main_v6 : IVec S16384x64 1 := cmpf .olt main_v4 main_v5
  let main_c_1 : IVec S_ 1 := constantI S_ 1 1#1
  let main_v7 : IVec S_ 1 := (fun x v => Host.reduce IntOp.andi x v reducesTo_S16384x64_S_d0_1 h_S_) main_v6 main_c_1
  let main_v8 : IVec S_ 1 := andi main_v3 main_v7
  main_v8
-- ==== Kernel.lean ====
abbrev S16384x64 : Shape := ⟨2, ![16384, 64]⟩
abbrev S16384x1 : Shape := ⟨2, ![16384, 1]⟩
abbrev S8x1x16384 : Shape := ⟨3, ![8, 1, 16384]⟩
abbrev S2048x64 : Shape := ⟨2, ![2048, 64]⟩
abbrev S1024x64 : Shape := ⟨2, ![1024, 64]⟩
abbrev S2048x1 : Shape := ⟨2, ![2048, 1]⟩
abbrev S1x1x1024 : Shape := ⟨3, ![1, 1, 1024]⟩
abbrev S2048 : Shape := ⟨1, ![2048]⟩
abbrev S1024 : Shape := ⟨1, ![1024]⟩
abbrev S1024x1 : Shape := ⟨2, ![1024, 1]⟩
abbrev S64x1024 : Shape := ⟨2, ![64, 1024]⟩
abbrev S2048x1024 : Shape := ⟨2, ![2048, 1024]⟩
abbrev S1x1024 : Shape := ⟨2, ![1, 1024]⟩
abbrev S8x16384 : Shape := ⟨2, ![8, 16384]⟩
abbrev S_ : Shape := ⟨0, ![]⟩
abbrev S16384 : Shape := ⟨1, ![16384]⟩

abbrev nBuf : Space → Nat
  | .hbm => 25
  | .vmem => 8
  | .smem => 0
  | _ => 0

abbrev bufTy : (tb : Table) → Fin (tcTables nBuf tb) → BufTy
  | .hbm, ⟨0, _⟩ => ⟨S16384x64, .f32⟩
  | .hbm, ⟨1, _⟩ => ⟨S16384x64, .f32⟩
  | .hbm, ⟨2, _⟩ => ⟨S16384x1, .f32⟩
  | .hbm, ⟨3, _⟩ => ⟨S8x1x16384, .f32⟩
  | .hbm, ⟨4, _⟩ => ⟨S8x16384, .f32⟩
  | .hbm, ⟨5, _⟩ => ⟨S_, .f32⟩
  | .hbm, ⟨6, _⟩ => ⟨S16384, .f32⟩
  | .hbm, ⟨7, _⟩ => ⟨S16384, .f32⟩
  | .hbm, ⟨8, _⟩ => ⟨S_, .f32⟩
  | .hbm, ⟨9, _⟩ => ⟨S16384, .f32⟩
  | .hbm, ⟨10, _⟩ => ⟨S16384, .f32⟩
  | .hbm, ⟨11, _⟩ => ⟨S16384, .f32⟩
  | .hbm, ⟨12, _⟩ => ⟨S_, .f32⟩
  | .hbm, ⟨13, _⟩ => ⟨S16384, .f32⟩
  | .hbm, ⟨14, _⟩ => ⟨S16384, .f32⟩
  | .hbm, ⟨15, _⟩ => ⟨S16384, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .local _ .vmem, ⟨0, _⟩ => ⟨S2048x64, .f32⟩
  | .local _ .vmem, ⟨1, _⟩ => ⟨S2048x64, .f32⟩
  | .local _ .vmem, ⟨2, _⟩ => ⟨S1024x64, .f32⟩
  | .local _ .vmem, ⟨3, _⟩ => ⟨S1024x64, .f32⟩
  | .local _ .vmem, ⟨4, _⟩ => ⟨S2048x1, .f32⟩
  | .local _ .vmem, ⟨5, _⟩ => ⟨S2048x1, .f32⟩
  | .local _ .vmem, ⟨6, _⟩ => ⟨S1x1x1024, .f32⟩
  | .local _ .vmem, ⟨7, _⟩ => ⟨S1x1x1024, .f32⟩
  | _, _ => ⟨S16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_cst_4 : Ref sig .tc := ⟨.hbm, 20, rfl⟩
abbrev main_v12 : Ref sig .tc := ⟨.hbm, 21, rfl⟩
abbrev main_cst_5 : Ref sig .tc := ⟨.hbm, 22, rfl⟩
abbrev main_v13 : Ref sig .tc := ⟨.hbm, 23, rfl⟩
abbrev main_v14 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S2048x1_S2048x1_0_0 : ∀ a, (![0, 0] : Fin 2 → Nat) a + S2048x1.size a ≤ S2048x1.size a
  h_S2048x1 : 0 < S2048x1.numel
  inb_S2048x64_S2048x64_0_0 : ∀ a, (![0, 0] : Fin 2 → Nat) a + S2048x64.size a ≤ S2048x64.size a
  h_S2048x64 : 0 < S2048x64.numel
  inb_S1024x64_S1024x64_0_0 : ∀ a, (![0, 0] : Fin 2 → Nat) a + S1024x64.size a ≤ S1024x64.size a
  h_S1024x64 : 0 < S1024x64.numel
  reduces_S2048x64_S2048 : S2048x64.Reduces [1] S2048
  shapeCasts_S2048_S2048x1 : S2048.ShapeCasts S2048x1
  reduces_S1024x64_S1024 : S1024x64.Reduces [1] S1024
  shapeCasts_S1024_S1024x1 : S1024.ShapeCasts S1024x1
  bitsLt_bf16_f32 : FTy.bits .bf16 < FTy.bits .f32
  transposes_S1024x64_p1_0_S64x1024 : S1024x64.Transposes [1, 0] S64x1024
  transposes_S1024x1_p1_0_S1x1024 : S1024x1.Transposes [1, 0] S1x1024
  broadcasts_S1x1024_S2048x1024 : S1x1024.Broadcasts S2048x1024
  reduces_S2048x1024_S2048 : S2048x1024.Reduces [1] S2048
  shapeCasts_S2048x1_S2048x1 : S2048x1.ShapeCasts S2048x1
  broadcasts_S2048x1_S2048x1024 : S2048x1.Broadcasts S2048x1024
  reduces_S2048x1024_S1024 : S2048x1024.Reduces [0] S1024
  shapeCasts_S1024_S1x1024 : S1024.ShapeCasts S1x1024
  shapeCasts_S1x1024_S1x1x1024 : S1x1024.ShapeCasts S1x1x1024
  inb_S1x1x1024_S1x1x1024_0_0_0 : ∀ a, (![0, 0, 0] : Fin 3 → Nat) a + S1x1x1024.size a ≤ S1x1x1024.size a
  h_S1x1x1024 : 0 < S1x1x1024.numel
  shapeCasts_S8x1x16384_S8x16384 : S8x1x16384.ShapeCasts S8x16384
  reducesTo_S8x16384_S16384_d0 : S8x16384.ReducesTo [0] S16384
  h_S_ : 0 < S_.numel
  shapeCasts_S16384x1_S16384 : S16384x1.ShapeCasts S16384
  bcast_S_S16384 : S_.BroadcastsInDim S16384 (![] : Fin 0 → Fin S16384.rank)
  reducesTo_S16384_S_d0 : S16384.ReducesTo [0] S_
  dot_S2048x64_S64x1024_S2048x1024_1_0_0_1_n_n_wf : DotDims.WF S2048x64 S64x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x64.size a ≤ S16384x64.size a
  hwx0_0 : ∀ i : grid0.Coords, EltTy.bits .f32 = 32 ∨ (Rect.block (s := S16384x64) S2048x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S16384x64.size a
  hwx0_1 : ∀ i : grid0.Coords, EltTy.bits .f32 = 32 ∨ (Rect.block (s := S16384x64) S1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S16384x1.size a
  hwx0_2 : ∀ i : grid0.Coords, EltTy.bits .f32 = 32 ∨ (Rect.block (s := S16384x1) S2048x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1024.size a ≤ S8x1x16384.size a
  hwx0_3 : ∀ i : grid0.Coords, EltTy.bits .f32 = 32 ∨ (Rect.block (s := S8x1x16384) S1x1x1024.size (cc0_transform_3 i) (hinb0_3 i)).WholeWords (EltTy.packing .f32)

variable [Facts₀]

def dot_S2048x64_S64x1024_S2048x1024_1_0_0_1_n_n : DotDims S2048x64 S64x1024 S2048x1024 where
  lhsContracting := [1]
  rhsContracting := [0]
  lhsNonContracting := [0]
  rhsNonContracting := [1]
  lhsBatch := []
  rhsBatch := []
  wf := dot_S2048x64_S64x1024_S2048x1024_1_0_0_1_n_n_wf

abbrev win0_0 : Pipeline.Window sig grid0 :=
  Pipeline.Window.ofSpec (Memref.whole main_arg0) S2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S2048x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x64 : Shape := ⟨2, ![16384, 64]⟩
abbrev S_ : Shape := ⟨0, ![]⟩
abbrev S16384 : Shape := ⟨1, ![16384]⟩
abbrev S16384x16384 : Shape := ⟨2, ![16384, 16384]⟩
abbrev S16384x1 : Shape := ⟨2, ![16384, 1]⟩
abbrev S1x16384 : Shape := ⟨2, ![1, 16384]⟩

abbrev nBuf : Space → Nat
  | .hbm => 35
  | .vmem => 0
  | .smem => 0
  | _ => 0

abbrev bufTy : (tb : Table) → Fin (tcTables nBuf tb) → BufTy
  | .hbm, ⟨0, _⟩ => ⟨S16384x64, .f32⟩
  | .hbm, ⟨1, _⟩ => ⟨S16384x64, .f32⟩
  | .hbm, ⟨2, _⟩ => ⟨S16384x64, .f32⟩
  | .hbm, ⟨3, _⟩ => ⟨S_, .f32⟩
  | .hbm, ⟨4, _⟩ => ⟨S16384, .f32⟩
  | .hbm, ⟨5, _⟩ => ⟨S16384x64, .f32⟩
  | .hbm, ⟨6, _⟩ => ⟨S_, .f32⟩
  | .hbm, ⟨7, _⟩ => ⟨S16384, .f32⟩
  | .hbm, ⟨8, _⟩ => ⟨S16384x16384, .f32⟩
  | .hbm, ⟨9, _⟩ => ⟨S16384x1, .f32⟩
  | .hbm, ⟨10, _⟩ => ⟨S1x16384, .f32⟩
  | .hbm, ⟨11, _⟩ => ⟨S16384x16384, .f32⟩
  | .hbm, ⟨12, _⟩ => ⟨S16384x16384, .f32⟩
  | .hbm, ⟨13, _⟩ => ⟨S16384x16384, .f32⟩
  | .hbm, ⟨14, _⟩ => ⟨S_, .f32⟩
  | .hbm, ⟨15, _⟩ => ⟨S16384x16384, .f32⟩
  | .hbm, ⟨16, _⟩ => ⟨S16384x16384, .f32⟩
  | .hbm, ⟨17, _⟩ => ⟨S16384x16384, .f32⟩
  | .hbm, ⟨18, _⟩ => ⟨S_, .f32⟩
  | .hbm, ⟨19, _⟩ => ⟨S16384x16384, .f32⟩
  | .hbm, ⟨20, _⟩ => ⟨S16384x16384, .f32⟩
  | .hbm, ⟨21, _⟩ => ⟨S16384x16384, .f32⟩
  | .hbm, ⟨22, _⟩ => ⟨S_, .f32⟩
  | .hbm, ⟨23, _⟩ => ⟨S16384, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S16384, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_cst_6 : Ref sig .tc := ⟨.hbm, 28, rfl⟩
abbrev main_v19 : Ref sig .tc := ⟨.hbm, 29, rfl⟩
abbrev main_cst_7 : Ref sig .tc := ⟨.hbm, 30, rfl⟩
abbrev main_v20 : Ref sig .tc := ⟨.hbm, 31, rfl⟩
abbrev main_cst_8 : Ref sig .tc := ⟨.hbm, 32, rfl⟩
abbrev main_v21 : Ref sig .tc := ⟨.hbm, 33, rfl⟩
abbrev main_v22 : Ref sig .tc := ⟨.hbm, 34, rfl⟩

abbrev nD : Nat := 1
abbrev τ : Topo := Topo.v7x

variable {F : FTy → Type} [FloatOps F]

class Facts₀ : Prop where
  reducesTo_S16384x64_S16384_d1 : S16384x64.ReducesTo [1] S16384
  h_S_ : 0 < S_.numel
  bcast_S16384_S16384x1_0 : S16384.BroadcastsInDim S16384x1 (![0] : Fin 1 → Fin S16384x1.rank)
  bcast_S16384_S1x16384_1 : S16384.BroadcastsInDim S1x16384 (![1] : Fin 1 → Fin S1x16384.rank)
  bcast_S16384x1_S16384x16384_0_1 : S16384x1.BroadcastsInDim S16384x16384 (![0, 1] : Fin 2 → Fin S16384x16384.rank)
  bcast_S1x16384_S16384x16384_0_1 : S1x16384.BroadcastsInDim S16384x16384 (![0, 1] : Fin 2 → Fin S16384x16384.rank)
  bcast_S_S16384x16384 : S_.BroadcastsInDim S16384x16384 (![] : Fin 0 → Fin S16384x16384.rank)
  reducesTo_S16384x16384_S16384_d1 : S16384x16384.ReducesTo [1] S16384
  reducesTo_S16384_S_d0 : S16384.ReducesTo [0] S_
  reducesTo_S16384x16384_S16384_d0 : S16384x16384.ReducesTo [0] S16384
  dot_S16384x64_S16384x64_S16384x16384_1_1_0_0_n_n_wf : DotDims.WF S16384x64 S16384x64 S16384x16384 [1] [1] [0] [0] [] []

variable [Facts₀]

def dot_S16384x64_S16384x64_S16384x16384_1_1_0_0_n_n : DotDims S16384x64 S16384x64 S16384x16384 where
  lhsContracting := [1]
  rhsContracting := [1]
  lhsNonContracting := [0]
  rhsNonContracting := [0]
  lhsBatch := []
  rhsBatch := []
  wf := dot_S16384x64_S16384x64_S16384x16384_1_1_0_0_n_n_wf

class Facts : Prop extends Facts₀ where

variable [Facts]
-- ==== Proof.Pieces.lean ====
/-
  What one grid step leaves in its two output blocks, as the step's values.

  The step's body writes the running row minima once or twice and the column block once, each write covering its whole
  block, and every read it makes covers a whole block too. So what a block holds after the step is the value of its last
  write, computed from the blocks read:
    * a block's first tile (the running minima are first filled with +∞, then updated): the update applied to the fill;
    * any later tile: the update applied to what the step before left;
    * the column block, in either case: the step's column values.
  These hold for any reading of the floats.
-/
import proofs.«151713_j1580547968037_2_alg».proof.Proof.Gen.KernelIdeal.Frame
import Idealize.ShloMosaic.Lib.Pipeline.Value
import Idealize.ShloMosaic.Lib.Tactic

set_option maxRecDepth 16384

noncomputable section

namespace Cert.Hausdorff.Pieces

open Idealize.ShloMosaic Idealize.ShloMosaic.TcCoe Idealize.SL.Sem Idealize.ShloMosaic.Tactic
open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A later tile: the running minima are the update of what the step before left. -/
theorem out_B_2 (c : Dev nD) (i : grid0.Coords) (a2 : Memref sig .tc .vmem S2048x64 .f32) (h2 : a2.IsWhole)
    (a3 : Memref sig .tc .vmem S1024x64 .f32) (h3 : a3.IsWhole) (a4 : Memref sig .tc .vmem S2048x1 .f32) (h4 : a4.IsWhole)
    (a5 : Memref sig .tc .vmem S1x1x1024 .f32) (h5 : a5.IsWhole) (hc : ¬cond0_0 i)
    (x0 : Vec F S2048x64 .f32) (x1 : Vec F S1024x64 .f32) (xo2 : Vec F S2048x1 .f32) :
    out0_B_2 c i a2 h2 a3 h3 a4 h4 a5 h5 hc x0 x1 xo2 = k0_pay5 x0 x1 xo2 := by
  unfold out0_B_2
  rw [View.read_writes_eq_canon _ _ _ (cover0_B_2 c i a2 h2 a3 h3 a4 h4 a5 h5 hc x0 x1 xo2)]
  unfold kernelRun0_B
  dsimp only
  rw [View.canon_unit_zero hz2]
  simp only [View.readAt_eq_ld, h2.read_unread, h3.read_unread, h4.read_unread, View.ld_unit_zero (S := S2048x64) hz2,
    View.ld_unit_zero (S := S1024x64) hz2, View.ld_unit_zero (S := S2048x1) hz2]

/-- A block's first tile: the running minima are the update of the +∞ fill. -/
theorem out_A_2 (c : Dev nD) (i : grid0.Coords) (a2 : Memref sig .tc .vmem S2048x64 .f32) (h2 : a2.IsWhole)
    (a3 : Memref sig .tc .vmem S1024x64 .f32) (h3 : a3.IsWhole) (a4 : Memref sig .tc .vmem S2048x1 .f32) (h4 : a4.IsWhole)
    (a5 : Memref sig .tc .vmem S1x1x1024 .f32) (h5 : a5.IsWhole) (hc : cond0_0 i)
    (x0 : Vec F S2048x64 .f32) (x1 : Vec F S1024x64 .f32) :
    out0_A_2 c i a2 h2 a3 h3 a4 h4 a5 h5 hc x0 x1 = k0_pay5 x0 x1 (k0_pay1 (F := F)) := by
  unfold out0_A_2
  rw [View.read_writes_eq_canon _ _ _ (cover0_A_2 c i a2 h2 a3 h3 a4 h4 a5 h5 hc x0 x1)]
  unfold kernelRun0_A
  dsimp only
  sl_unfold_words
  rw [View.canon_cons_unit_zero (S := S2048x1) hz2, View.readCov_unit_zero (S := S2048x1) _ hz2]
  simp only [View.readAt_eq_ld, h2.read_unread, h3.read_unread, View.ld_unit_zero (S := S2048x64) hz2,
    View.ld_unit_zero (S := S1024x64) hz2, View.ld_unit_zero (S := S2048x1) hz2]

/-- A later tile: the column block holds the step's column values. -/
theorem out_B_3 (c : Dev nD) (i : grid0.Coords) (a2 : Memref sig .tc .vmem S2048x64 .f32) (h2 : a2.IsWhole)
    (a3 : Memref sig .tc .vmem S1024x64 .f32) (h3 : a3.IsWhole) (a4 : Memref sig .tc .vmem S2048x1 .f32) (h4 : a4.IsWhole)
    (a5 : Memref sig .tc .vmem S1x1x1024 .f32) (h5 : a5.IsWhole) (hc : ¬cond0_0 i)
    (x0 : Vec F S2048x64 .f32) (x1 : Vec F S1024x64 .f32) (xo2 : Vec F S2048x1 .f32) :
    out0_B_3 c i a2 h2 a3 h3 a4 h4 a5 h5 hc x0 x1 xo2 = k0_pay6 x0 x1 := by
  unfold out0_B_3
  rw [View.read_writes_eq_canon _ _ _ (cover0_B_3 c i a2 h2 a3 h3 a4 h4 a5 h5 hc x0 x1 xo2)]
  unfold kernelRun0_B
  dsimp only
  sl_unfold_words
  rw [View.canon_unit_zero hz3]
  simp only [View.readAt_eq_ld, h2.read_unread, h3.read_unread, View.ld_unit_zero (S := S2048x64) hz2,
    View.ld_unit_zero (S := S1024x64) hz2, View.ld_unit_zero (S := S2048x1) hz2]

/-- A block's first tile: the column block holds the step's column values. -/
theorem out_A_3 (c : Dev nD) (i : grid0.Coords) (a2 : Memref sig .tc .vmem S2048x64 .f32) (h2 : a2.IsWhole)
    (a3 : Memref sig .tc .vmem S1024x64 .f32) (h3 : a3.IsWhole) (a4 : Memref sig .tc .vmem S2048x1 .f32) (h4 : a4.IsWhole)
    (a5 : Memref sig .tc .vmem S1x1x1024 .f32) (h5 : a5.IsWhole) (hc : cond0_0 i)
    (x0 : Vec F S2048x64 .f32) (x1 : Vec F S1024x64 .f32) :
    out0_A_3 c i a2 h2 a3 h3 a4 h4 a5 h5 hc x0 x1 = k0_pay6 x0 x1 := by
  unfold out0_A_3
  rw [View.read_writes_eq_canon _ _ _ (cover0_A_3 c i a2 h2 a3 h3 a4 h4 a5 h5 hc x0 x1)]
  unfold kernelRun0_A
  dsimp only
  sl_unfold_words
  rw [View.canon_unit_zero hz3]
  simp only [View.readAt_eq_ld, h2.read_unread, h3.read_unread, View.ld_unit_zero (S := S2048x64) hz2,
    View.ld_unit_zero (S := S1024x64) hz2, View.ld_unit_zero (S := S2048x1) hz2]

end Cert.Hausdorff.Pieces

end
-- ==== Proof.Spec.lean ====
/-
  The averaged Hausdorff distance of two clouds of 16384 points in 64 dimensions, over the extended reals.

  For point clouds X and Y write  sq X r = Σₖ X(r,k)²,  dot X Y r n = Σₖ X(r,k)·Y(n,k)  and
  dist2 X Y r n = (sq X r + sq Y n) − 2·dot X Y r n  (the squared distance, expanded).  The result is
    mean over r of  min over n of  √(max(dist2 r n, 0))   +   mean over n of  min over r of  √(max(dist2 r n, 0)).
  This file states the two vectors of minima ("rowRes", "colRes") and proves that two other arrangements of the
  same minima equal them:
    * rows: the minimum is taken tile by tile over 16 tiles of 1024 columns, each tile's minimum taken BEFORE the
      row's own square is added, the tiles folded into a running minimum from +∞, and the clamp and the root applied
      once, at the end;
    * columns: the minimum is taken block by block over 8 blocks of 2048 rows, each block's minimum taken before the
      column's own square is added, then the minimum over the 8 blocks, then the clamp and the root.
  Both hold because  v ↦ a + v  and  v ↦ √(max(v, 0))  are monotone on the extended reals, a monotone map commutes with
  the minimum of a nonempty finite family, and addition of extended reals is associative and commutative
  (subtraction being the addition of the negative).  No finiteness of the entries is used.
-/
import Idealize.ShloMosaic.PureOps.Ideal
import Idealize.ShloMosaic.PureOps.Ideal.Laws
import Idealize.ShloMosaic.Lib.ValueIdx

noncomputable section

namespace Cert.Hausdorff

open Idealize.ShloMosaic Idealize.ShloMosaic.ValueIdx

/-! ## The minimum of a finite family, from +∞ -/

/-- The minimum of a finite family of extended reals, starting from `⊤` (so the empty family has minimum `⊤`). -/
def minOver {ι : Type} [Fintype ι] (f : ι → EReal) : EReal := Finset.univ.fold min ⊤ f

/-- Its universal property: a lower bound of the minimum is a lower bound of every member. -/
theorem le_minOver {ι : Type} [Fintype ι] (f : ι → EReal) (c : EReal) : c ≤ minOver f ↔ ∀ i, c ≤ f i := by
  unfold minOver
  rw [Finset.le_fold_min]
  exact ⟨fun h i => h.2 i (Finset.mem_univ i), fun h => ⟨le_top, fun i _ => h i⟩⟩

theorem minOver_le {ι : Type} [Fintype ι] (f : ι → EReal) (i : ι) : minOver f ≤ f i :=
  (le_minOver f _).1 le_rfl i

/-- The minimum of a nonempty finite family is one of its members. -/
theorem minOver_attained {ι : Type} [Fintype ι] [Nonempty ι] (f : ι → EReal) : ∃ i, minOver f = f i := by
  have h : minOver f ≤ minOver f := le_rfl
  unfold minOver at h
  rw [Finset.fold_min_le] at h
  rcases h with h | ⟨i, _, hi⟩
  · obtain ⟨i⟩ := ‹Nonempty ι›
    exact ⟨i, le_antisymm (minOver_le f i) (le_top.trans h)⟩
  · exact ⟨i, le_antisymm (minOver_le f i) hi⟩

/-- A monotone map commutes with the minimum of a nonempty finite family. -/
theorem map_minOver {ι : Type} [Fintype ι] [Nonempty ι] (g : EReal → EReal) (hg : Monotone g) (f : ι → EReal) :
    g (minOver f) = minOver fun i => g (f i) := by
  obtain ⟨i0, hi0⟩ := minOver_attained f
  refine le_antisymm ((le_minOver _ _).2 fun i => hg (minOver_le f i)) ?_
  rw [hi0]
  exact minOver_le (fun i => g (f i)) i0

/-- Two families with the same lower bounds have the same minimum. -/
theorem minOver_eq_of_forall_le_iff {ι κ : Type} [Fintype ι] [Fintype κ] (f : ι → EReal) (g : κ → EReal)
    (h : ∀ c, (∀ i, c ≤ f i) ↔ ∀ k, c ≤ g k) : minOver f = minOver g :=
  eq_of_forall_le_iff fun c => by rw [le_minOver, le_minOver]; exact h c

/-- The running minimum of a sequence from +∞: after step `n` it is `min(… min(min(⊤, v 0), v 1) …, v n)`. -/
def runMin (v : ℕ → EReal) : ℕ → EReal
  | 0 => min ⊤ (v 0)
  | n + 1 => min (runMin v n) (v (n + 1))

theorem le_runMin (v : ℕ → EReal) (c : EReal) : ∀ n, c ≤ runMin v n ↔ ∀ k, k ≤ n → c ≤ v k
  | 0 => by
    show c ≤ min ⊤ (v 0) ↔ _
    rw [le_min_iff]
    exact ⟨fun h k hk => by obtain rfl : k = 0 := Nat.le_zero.1 hk; exact h.2, fun h => ⟨le_top, h 0 le_rfl⟩⟩
  | n + 1 => by
    show c ≤ min (runMin v n) (v (n + 1)) ↔ _
    rw [le_min_iff, le_runMin v c n]
    constructor
    · rintro ⟨h1, h2⟩ k hk
      rcases Nat.lt_or_ge k (n + 1) with hlt | hge
      · exact h1 k (Nat.lt_succ_iff.1 hlt)
      · obtain rfl : k = n + 1 := le_antisymm hk hge
        exact h2
    · exact fun h => ⟨fun k hk => h k (Nat.le_succ_of_le hk), h (n + 1) le_rfl⟩

/-! ## The clamp and the root -/

/-- `√(max(v, 0))`: the distance from a squared distance that rounding may have pushed below zero. -/
def clampSqrt (v : EReal) : EReal := Ideal.sqrt (max v 0)

theorem sqrt_le_sqrt_of_nonneg {a b : EReal} (ha : 0 ≤ a) (hab : a ≤ b) : Ideal.sqrt a ≤ Ideal.sqrt b := by
  induction b using EReal.rec with
  | bot => exact absurd (ha.trans hab) (by simp)
  | top => rw [Ideal.sqrt_top]; exact le_top
  | coe rb =>
    induction a using EReal.rec with
    | bot => exact absurd ha (by simp)
    | top => exact absurd hab (by simp)
    | coe ra =>
      have h0 : (0 : ℝ) ≤ ra := EReal.coe_nonneg.1 ha
      have hle : ra ≤ rb := EReal.coe_le_coe_iff.1 hab
      rw [Ideal.sqrt_coe, Ideal.sqrt_coe, if_neg (not_lt.2 h0), if_neg (not_lt.2 (h0.trans hle))]
      exact EReal.coe_le_coe_iff.2 (Real.sqrt_le_sqrt hle)

theorem clampSqrt_mono : Monotone clampSqrt := fun _ _ h =>
  sqrt_le_sqrt_of_nonneg (le_max_right _ _) (max_le_max_right 0 h)

/-! ## Squares, inner products, squared distances -/

/-- The squared length of row `r` of an `N × 64` array. -/
def sq {N : ℕ} (X : (⟨2, ![N, 64]⟩ : Shape).Idx → EReal) (r : Fin N) : EReal := ∑ k : Fin 64, X (ix2 r k) * X (ix2 r k)

/-- The inner product of row `r` of `X` with row `n` of `Y`. -/
def dot {N M : ℕ} (X : (⟨2, ![N, 64]⟩ : Shape).Idx → EReal) (Y : (⟨2, ![M, 64]⟩ : Shape).Idx → EReal) (r : Fin N) (n : Fin M) :
    EReal := ∑ k : Fin 64, X (ix2 r k) * Y (ix2 n k)

/-- The number two, as the single-precision word both programs spell it with. -/
def two : EReal := Ideal.ofBits .f32 0x40000000#32

/-- The expanded squared distance between row `r` of `X` and row `n` of `Y`. -/
def dist2 {N M : ℕ} (X : (⟨2, ![N, 64]⟩ : Shape).Idx → EReal) (Y : (⟨2, ![M, 64]⟩ : Shape).Idx → EReal) (r : Fin N) (n : Fin M) :
    EReal := (sq X r + sq Y n) - two * dot X Y r n

theorem add_sub_eq_dist2 {N M : ℕ} (X : (⟨2, ![N, 64]⟩ : Shape).Idx → EReal) (Y : (⟨2, ![M, 64]⟩ : Shape).Idx → EReal) (r : Fin N) (n : Fin M) :
    sq X r + (sq Y n - two * dot X Y r n) = dist2 X Y r n := by
  unfold dist2
  rw [sub_eq_add_neg, sub_eq_add_neg, add_assoc]

theorem add_sub_eq_dist2' {N M : ℕ} (X : (⟨2, ![N, 64]⟩ : Shape).Idx → EReal) (Y : (⟨2, ![M, 64]⟩ : Shape).Idx → EReal) (r : Fin N) (n : Fin M) :
    sq Y n + (sq X r - two * dot X Y r n) = dist2 X Y r n := by
  unfold dist2
  rw [sub_eq_add_neg, sub_eq_add_neg, ← add_assoc, add_comm (sq Y n)]

/-! ## One tile: 2048 rows of `X` against 1024 rows of `Y` -/

/-- For row `p` of the tile: its square plus the least of `sq y c − 2·x·y` over the tile's 1024 columns. -/
def tileRow (x : (⟨2, ![2048, 64]⟩ : Shape).Idx → EReal) (y : (⟨2, ![1024, 64]⟩ : Shape).Idx → EReal) (p : Fin 2048) : EReal :=
  sq x p + minOver fun c : Fin 1024 => sq y c - two * dot x y p c

/-- For column `c` of the tile: its square plus the least of `sq x p − 2·x·y` over the tile's 2048 rows. -/
def tileCol (x : (⟨2, ![2048, 64]⟩ : Shape).Idx → EReal) (y : (⟨2, ![1024, 64]⟩ : Shape).Idx → EReal) (c : Fin 1024) : EReal :=
  sq y c + minOver fun p : Fin 2048 => sq x p - two * dot x y p c

theorem tileRow_eq (x : (⟨2, ![2048, 64]⟩ : Shape).Idx → EReal) (y : (⟨2, ![1024, 64]⟩ : Shape).Idx → EReal) (p : Fin 2048) :
    tileRow x y p = minOver fun c : Fin 1024 => dist2 x y p c := by
  unfold tileRow
  rw [map_minOver (fun v => sq x p + v) (fun _ _ h => add_le_add le_rfl h)]
  exact congrArg minOver (funext fun c => add_sub_eq_dist2 x y p c)

theorem tileCol_eq (x : (⟨2, ![2048, 64]⟩ : Shape).Idx → EReal) (y : (⟨2, ![1024, 64]⟩ : Shape).Idx → EReal) (c : Fin 1024) :
    tileCol x y c = minOver fun p : Fin 2048 => dist2 x y p c := by
  unfold tileCol
  rw [map_minOver (fun v => sq y c + v) (fun _ _ h => add_le_add le_rfl h)]
  exact congrArg minOver (funext fun p => add_sub_eq_dist2' x y p c)

/-! ## The whole clouds -/

abbrev Cloud := (⟨2, ![16384, 64]⟩ : Shape).Idx → EReal

/-- Row `p` of row block `b` (of 8 blocks of 2048 rows; `b` read modulo 8). -/
def blockRow (b : ℕ) (p : Fin 2048) : Fin 16384 := ⟨(b % 8) * 2048 + p.val, by have := p.isLt; have := Nat.mod_lt b (by decide : 0 < 8); omega⟩

/-- Row `c` of tile `j` (of 16 tiles of 1024 rows; `j` read modulo 16). -/
def tileRowIdx (j : ℕ) (c : Fin 1024) : Fin 16384 := ⟨(j % 16) * 1024 + c.val, by have := c.isLt; have := Nat.mod_lt j (by decide : 0 < 16); omega⟩

/-- Row block `b` of a cloud and tile `j` of a cloud, as arrays of their own. -/
def rowBlock (X : Cloud) (b : ℕ) : (⟨2, ![2048, 64]⟩ : Shape).Idx → EReal := fun i => X (ix2 (blockRow b (i 0)) (i 1))
def rowTileOf (Y : Cloud) (j : ℕ) : (⟨2, ![1024, 64]⟩ : Shape).Idx → EReal := fun i => Y (ix2 (tileRowIdx j (i 0)) (i 1))

theorem sq_rowBlock (X : Cloud) (b : ℕ) (p : Fin 2048) : sq (rowBlock X b) p = sq X (blockRow b p) := rfl
theorem sq_rowTileOf (Y : Cloud) (j : ℕ) (c : Fin 1024) : sq (rowTileOf Y j) c = sq Y (tileRowIdx j c) := rfl
theorem dot_blocks (X Y : Cloud) (b j : ℕ) (p : Fin 2048) (c : Fin 1024) :
    dot (rowBlock X b) (rowTileOf Y j) p c = dot X Y (blockRow b p) (tileRowIdx j c) := rfl
theorem dist2_blocks (X Y : Cloud) (b j : ℕ) (p : Fin 2048) (c : Fin 1024) :
    dist2 (rowBlock X b) (rowTileOf Y j) p c = dist2 X Y (blockRow b p) (tileRowIdx j c) := rfl

/-- The least distance from point `r` of `X` to `Y`, and from point `n` of `Y` to `X`. -/
def rowRes (X Y : Cloud) (r : Fin 16384) : EReal := minOver fun n : Fin 16384 => clampSqrt (dist2 X Y r n)
def colRes (X Y : Cloud) (n : Fin 16384) : EReal := minOver fun r : Fin 16384 => clampSqrt (dist2 X Y r n)

/-- Rows, as accumulated: the running minimum over the 16 tiles of the tiles' row values, for row `p` of block `b`. -/
def rowAcc (X Y : Cloud) (b : ℕ) (p : Fin 2048) (j : ℕ) : EReal :=
  runMin (fun j' => tileRow (rowBlock X b) (rowTileOf Y j') p) j

/-- Columns, as accumulated: for column `c` of tile `j`, the least over the 8 row blocks of the tiles' column values. -/
def colAcc (X Y : Cloud) (j : ℕ) (c : Fin 1024) : EReal :=
  minOver fun b : Fin 8 => tileCol (rowBlock X b.val) (rowTileOf Y j) c

theorem tileRowIdx_surj (n : Fin 16384) : ∃ (j : Fin 16) (c : Fin 1024), tileRowIdx j.val c = n :=
  ⟨⟨n.val / 1024, by have := n.isLt; omega⟩, ⟨n.val % 1024, Nat.mod_lt _ (by decide)⟩, Fin.ext (by
    show (n.val / 1024 % 16) * 1024 + n.val % 1024 = n.val
    have := n.isLt; omega)⟩

theorem blockRow_surj (r : Fin 16384) : ∃ (b : Fin 8) (p : Fin 2048), blockRow b.val p = r :=
  ⟨⟨r.val / 2048, by have := r.isLt; omega⟩, ⟨r.val % 2048, Nat.mod_lt _ (by decide)⟩, Fin.ext (by
    show (r.val / 2048 % 8) * 2048 + r.val % 2048 = r.val
    have := r.isLt; omega)⟩

/-- THE ROW LAW: clamp and root of the running minimum after the last tile is the least distance to `Y`. -/
theorem clampSqrt_rowAcc (X Y : Cloud) (b : ℕ) (p : Fin 2048) :
    clampSqrt (rowAcc X Y b p 15) = rowRes X Y (blockRow b p) := by
  have e : rowAcc X Y b p 15 = minOver fun n : Fin 16384 => dist2 X Y (blockRow b p) n := by
    refine eq_of_forall_le_iff fun c => ?_
    unfold rowAcc
    rw [le_runMin, le_minOver]
    constructor
    · intro h n
      obtain ⟨j, q, rfl⟩ := tileRowIdx_surj n
      have := h j.val (by have := j.isLt; omega)
      rw [tileRow_eq, le_minOver] at this
      exact this q
    · intro h j _
      rw [tileRow_eq, le_minOver]
      exact fun q => h (tileRowIdx j q)
  rw [e, map_minOver clampSqrt clampSqrt_mono]
  rfl

/-- THE COLUMN LAW: clamp and root of the least over the row blocks is the least distance to `X`. -/
theorem clampSqrt_colAcc (X Y : Cloud) (j : ℕ) (c : Fin 1024) :
    clampSqrt (colAcc X Y j c) = colRes X Y (tileRowIdx j c) := by
  have e : colAcc X Y j c = minOver fun r : Fin 16384 => dist2 X Y r (tileRowIdx j c) := by
    refine eq_of_forall_le_iff fun v => ?_
    unfold colAcc
    rw [le_minOver, le_minOver]
    constructor
    · intro h r
      obtain ⟨b, p, rfl⟩ := blockRow_surj r
      have := h b
      rw [tileCol_eq, le_minOver] at this
      exact this p
    · intro h b
      rw [tileCol_eq, le_minOver]
      exact fun p => h (blockRow b.val p)
  rw [e, map_minOver clampSqrt clampSqrt_mono]
  rfl

/-! ## Two words -/

/-- The single-precision word of +∞ denotes `⊤`. -/
theorem ofBits_inf_f32 : Ideal.ofBits .f32 0x7F800000#32 = ⊤ := by simp [Ideal.ofBits, Ideal.ieee]

end Cert.Hausdorff

end
-- ==== Proof.LibColumn.lean ====
/-
  Two layout operations read at an index, for a sum kept as a column: a vector of `a` entries cast to an
  `a × 1` column reads, at (i, 0), the vector at `i`; and an `a × 1` column broadcast to `a × b` reads, at (p, c), the
  column's entry in row `p`, whatever the lane `c`. Both are stated over literal rank-2 indices built from their
  coordinates, so that they rewrite under a payload's other operations.
-/
import Idealize.ShloMosaic.Lib.Pipeline.Value
import Idealize.ShloMosaic.Lib.ValueIdx

namespace Cert.LibColumn

open Idealize.ShloMosaic Idealize.ShloMosaic.ValueIdx

variable {α : Type}

/-- An `[a]` array cast to `[a, 1]` reads, at `(i, u)`, the operand at `i`, whatever the unit coordinate `u`:
    both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.LibPlainDot.lean ====
/-
  A plain matrix product read at an index, at the extended reals.

  For a rank-2 product `[M, K] · [K, N] → [M, N]` (one contracted axis: the left operand's columns against the right
  operand's rows, no batch axis) accumulated into the zero block, the entry at `(p, e)` is the finite sum over the
  contracted coordinate `k` of `lhs (p, k) · rhs (k, e)`. The product's dimension record enters only through four
  coordinate facts about its operand index maps (each is a one-line computation for a literal record), so the lemma
  serves any such record at any extents.
-/
import Idealize.ShloMosaic.Lib.ValueIdx
import Idealize.ShloMosaic.PureOps.Ideal.Laws

noncomputable section

namespace Cert.LibPlainDot

open Idealize.ShloMosaic Idealize.ShloMosaic.ValueIdx

/-- `[M, K] · [K, N]` into the zero accumulator, at `(p, e)`: `∑ₖ lhs (p, k) · rhs (k, e)`. The hypotheses say that the
    record contracts ONE axis of extent `K`, that the left operand is read at (output row, contracted coordinate) and the
    right operand at (contracted coordinate, output column). -/
theorem matmul_zero_apply {M K N : ℕ} {φ₁ φ₂ : FTy}
    (D : DotDims ⟨2, ![M, K]⟩ ⟨2, ![K, N]⟩ ⟨2, ![M, N]⟩) (hr : D.contr.rank = 1)
    (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![M, K]⟩ φ₁) (rhs : FVec Ideal ⟨2, ![K, N]⟩ φ₂) (p : Fin M) (e : Fin N) :
    matmul D none lhs rhs (constant (F := Ideal) ⟨2, ![M, N]⟩ .f32 0x00000000#32) (ix2 p e)
      = ∑ k : Fin K, lhs (ix2 p k) * rhs (ix2 k e) := by
  simp only [matmul]
  rw [Ideal.matmul_constant_zero_apply, ← Equiv.sum_comp (contrEquiv1 D K hr hs).symm]
  refine Finset.sum_congr rfl fun k _ => ?_
  have hk := contrEquiv1_symm_val D K hr hs k
  have el : D.lhsIdx (ix2 p e) ((contrEquiv1 D K hr hs).symm k) = ix2 p k := funext fun a => Fin.ext (by
    match a with
    | ⟨0, _⟩ => exact hl0 _ _
    | ⟨1, _⟩ => exact (hl1 _ _).trans hk)
  have er : D.rhsIdx (ix2 p e) ((contrEquiv1 D K hr hs).symm k) = ix2 k e := funext fun a => Fin.ext (by
    match a with
    | ⟨0, _⟩ => exact (hr0 _ _).trans hk
    | ⟨1, _⟩ => exact hr1 _ _)
  rw [el, er]

end Cert.LibPlainDot

end
-- ==== Proof.PayAt.lean ====
/-
  What one grid step computes, entry by entry, over the extended reals.

  The step holds a block `x` of 2048 rows of the first cloud and a tile `y` of 1024 rows of the second. It forms the
  rows' squares `sq x p` (a lane sum kept as a column), the tile's squares `sq y c` (a column turned into a row), and
  the 2048 × 1024 inner products `dot x y p c` (a matrix product with `y` transposed; the change of float format
  before it is the identity here). From these:
    * the value stored into the running row minima is, at row `p`,
        min(previous p, sq x p + min over c of (sq y c − 2·dot x y p c))  =  min(previous p, tileRow x y p);
    * the value stored into the column block is, at column `c`,
        sq y c + min over p of (sq x p − 2·dot x y p c)  =  tileCol x y c.
  Each layout operation (a vector cast to a column, a column spread over lanes, a row spread over rows, a transpose,
  a unit axis added) is read at an index built from its coordinates; a minimum over one axis is the minimum from +∞
  of the entries along that axis.
-/
import proofs.«151713_j1580547968037_2_alg».proof.Proof.Gen.KernelIdeal.Skeleton
import proofs.«151713_j1580547968037_2_alg».proof.Proof.Spec
import proofs.«151713_j1580547968037_2_alg».proof.Proof.LibColumn
import proofs.«151713_j1580547968037_2_alg».proof.Proof.LibPlainDot
import Idealize.ShloMosaic.Lib.ValueLayout
import Idealize.ShloMosaic.Lib.Pipeline.Value
import Idealize.ShloMosaic.PureOps.Ideal.Laws
import Idealize.ShloMosaic.PureOps.Reduce

noncomputable section

namespace Cert.Hausdorff.Pay

open Idealize.ShloMosaic Idealize.ShloMosaic.ValueIdx Cert.KernelIdeal Cert.KernelIdeal.Gen Cert.Hausdorff

/-! ## Minima and sums along one axis -/

/-- The minimum over the lanes of a 2048 × 1024 array, at row `p`: the least entry of the row, from +∞. -/
theorem minLanes_apply (src : FVec Ideal S2048x1024 .f32) (h : S2048x1024.Reduces [1] S2048) (hφ : FKind.Formats .f32)
    (hacc : (0x7F800000#32 : BitVec 32) = 0x7F800000#32) (p : Fin 2048) :
    multiReduction .minimumf [1] S2048 src 0x7F800000#32 h hφ hacc (ix1 p) = minOver fun c : Fin 1024 => src (ix2 p c) := by
  refine (multiReduction_minimumf_eq_fold src 0x7F800000#32 h hφ hacc (ix1 p)).trans ?_
  rw [h.fold_filter_drop_single]
  show (Finset.univ : Finset (Fin 1024)).fold min (Ideal.ofBits .f32 0x7F800000#32) (fun c => src (h.lift (ix1 p) c)) = _
  rw [ofBits_inf_f32]
  unfold minOver
  refine congrArg (fun f => (Finset.univ : Finset (Fin 1024)).fold min ⊤ f) (funext fun c => congrArg src ?_)
  exact funext fun a => Fin.ext (by match a with | ⟨0, _⟩ => rfl | ⟨1, _⟩ => rfl)

/-- The minimum over the rows of a 2048 × 1024 array, at column `c`: the least entry of the column, from +∞. -/
theorem minRows_apply (src : FVec Ideal S2048x1024 .f32) (h : S2048x1024.Reduces [0] S1024) (hφ : FKind.Formats .f32)
    (hacc : (0x7F800000#32 : BitVec 32) = 0x7F800000#32) (c : Fin 1024) :
    multiReduction .minimumf [0] S1024 src 0x7F800000#32 h hφ hacc (ix1 c) = minOver fun p : Fin 2048 => src (ix2 p c) := by
  refine (multiReduction_minimumf_eq_fold src 0x7F800000#32 h hφ hacc (ix1 c)).trans ?_
  rw [h.fold_filter_drop_single]
  show (Finset.univ : Finset (Fin 2048)).fold min (Ideal.ofBits .f32 0x7F800000#32) (fun p => src (h.lift (ix1 c) p)) = _
  rw [ofBits_inf_f32]
  unfold minOver
  refine congrArg (fun f => (Finset.univ : Finset (Fin 2048)).fold min ⊤ f) (funext fun p => congrArg src ?_)
  exact funext fun a => Fin.ext (by match a with | ⟨0, _⟩ => rfl | ⟨1, _⟩ => rfl)

/-- The lane sum of a 2048 × 64 array at row `p`. -/
theorem sumLanes2048_apply (src : FVec Ideal S2048x64 .f32) (h : S2048x64.Reduces [1] S2048) (hφ : FKind.Formats .f32)
    (hacc : (0x00000000#32 : BitVec 32) = 0x00000000#32) (p : Fin 2048) :
    multiReduction .add [1] S2048 src 0x00000000#32 h hφ hacc (ix1 p) = ∑ k : Fin 64, src (ix2 p k) := by
  refine (Ideal.multiReduction_add_single src 0x00000000#32 h hφ hacc (ix1 p)).trans ?_
  show ∑ k : Fin 64, src (h.lift (ix1 p) k) = _
  refine Finset.sum_congr rfl fun k _ => congrArg src ?_
  exact funext fun a => Fin.ext (by match a with | ⟨0, _⟩ => rfl | ⟨1, _⟩ => rfl)

/-- The lane sum of a 1024 × 64 array at row `c`. -/
theorem sumLanes1024_apply (src : FVec Ideal S1024x64 .f32) (h : S1024x64.Reduces [1] S1024) (hφ : FKind.Formats .f32)
    (hacc : (0x00000000#32 : BitVec 32) = 0x00000000#32) (c : Fin 1024) :
    multiReduction .add [1] S1024 src 0x00000000#32 h hφ hacc (ix1 c) = ∑ k : Fin 64, src (ix2 c k) := by
  refine (Ideal.multiReduction_add_single src 0x00000000#32 h hφ hacc (ix1 c)).trans ?_
  show ∑ k : Fin 64, src (h.lift (ix1 c) k) = _
  refine Finset.sum_congr rfl fun k _ => congrArg src ?_
  exact funext fun a => Fin.ext (by match a with | ⟨0, _⟩ => rfl | ⟨1, _⟩ => rfl)

/-! ## The step's values -/

/-- The fill of the running minima at a block's first tile: +∞ everywhere. -/
theorem pay1_at (p : Fin 2048) (u : Fin 1) : k0_pay1 (F := Ideal) (ix2 p u) = ⊤ := by
  unfold k0_pay1
  show Ideal.ofBits .f32 0x7F800000#32 = ⊤
  exact ofBits_inf_f32

/-- The rows' squares, kept as a column. -/
theorem pay2_at (x : FVec Ideal S2048x64 .f32) (p : Fin 2048) (u : Fin 1) : k0_pay2 (F := Ideal) x (ix2 p u) = sq x p := by
  unfold k0_pay2
  show shapeCast S2048x1 _ _ (ix2 p u) = _
  rw [Cert.LibColumn.shapeCast_a_a1_apply]
  refine (sumLanes2048_apply _ _ _ _ p).trans ?_
  rfl

/-- The tile's squares, kept as a column. -/
theorem pay3_at (y : FVec Ideal S1024x64 .f32) (c : Fin 1024) (u : Fin 1) : k0_pay3 (F := Ideal) y (ix2 c u) = sq y c := by
  unfold k0_pay3
  show shapeCast S1024x1 _ _ (ix2 c u) = _
  rw [Cert.LibColumn.shapeCast_a_a1_apply]
  refine (sumLanes1024_apply _ _ _ _ c).trans ?_
  rfl

theorem dot_lhs0 (i : S2048x1024.Idx) (q : dot_S2048x64_S64x1024_S2048x1024_1_0_0_1_n_n.contr.Idx) :
    (dot_S2048x64_S64x1024_S2048x1024_1_0_0_1_n_n.lhsIdx i q 0).val = (i 0).val := by
  unfold DotDims.lhsIdx
  rw [dif_neg (show ¬(0 : Fin S2048x64.rank) ∈ dot_S2048x64_S64x1024_S2048x1024_1_0_0_1_n_n.lhsBatch by decide),
    dif_pos (show (0 : Fin S2048x64.rank) ∈ dot_S2048x64_S64x1024_S2048x1024_1_0_0_1_n_n.lhsNonContracting by decide)]
  rfl

theorem dot_rhs1 (i : S2048x1024.Idx) (q : dot_S2048x64_S64x1024_S2048x1024_1_0_0_1_n_n.contr.Idx) :
    (dot_S2048x64_S64x1024_S2048x1024_1_0_0_1_n_n.rhsIdx i q 1).val = (i 1).val := by
  unfold DotDims.rhsIdx
  rw [dif_neg (show ¬(1 : Fin S64x1024.rank) ∈ dot_S2048x64_S64x1024_S2048x1024_1_0_0_1_n_n.rhsBatch by decide),
    dif_pos (show (1 : Fin S64x1024.rank) ∈ dot_S2048x64_S64x1024_S2048x1024_1_0_0_1_n_n.rhsNonContracting by decide)]
  rfl

/-- The inner products of the block's rows with the tile's rows. -/
theorem pay4_at (x : FVec Ideal S2048x64 .f32) (y : FVec Ideal S1024x64 .f32) (p : Fin 2048) (c : Fin 1024) :
    k0_pay4 (F := Ideal) x y (ix2 p c) = dot x y p c := by
  unfold k0_pay4
  show matmul dot_S2048x64_S64x1024_S2048x1024_1_0_0_1_n_n none (truncf .bf16 x _)
    (transpose S64x1024 [1, 0] (truncf .bf16 y _) _) (constant S2048x1024 .f32 0x00000000#32) (ix2 p c) = _
  rw [Cert.LibPlainDot.matmul_zero_apply dot_S2048x64_S64x1024_S2048x1024_1_0_0_1_n_n rfl rfl dot_lhs0
    (fun i q => dot_S2048x64_S64x1024_S2048x1024_1_0_0_1_n_n.lhsIdx_val_of_single rfl i q)
    (fun i q => dot_S2048x64_S64x1024_S2048x1024_1_0_0_1_n_n.rhsIdx_val_of_single rfl i q) dot_rhs1]
  unfold dot
  refine Finset.sum_congr rfl fun k _ => ?_
  rw [transpose_ix2_apply]
  rfl

/-- The running row minima after the step: the previous ones against this tile's row values. -/
theorem pay5_at (x : FVec Ideal S2048x64 .f32) (y : FVec Ideal S1024x64 .f32) (prev : FVec Ideal S2048x1 .f32) (p : Fin 2048) (u : Fin 1) :
    k0_pay5 (F := Ideal) x y prev (ix2 p u) = min (prev (ix2 p u)) (tileRow x y p) := by
  unfold k0_pay5
  show minimumf (shapeCast S2048x1 prev _) (addf (k0_pay2 (F := Ideal) x) (shapeCast S2048x1 (multiReduction .minimumf [1] S2048
    (subf (broadcastTo S2048x1024 (transpose S1x1024 [1, 0] (k0_pay3 (F := Ideal) y) _) _)
      (mulf (broadcast S2048x1024 (Scalar.ofBits .f32 0x40000000#32)) (k0_pay4 (F := Ideal) x y))) 0x7F800000#32 _ _ _) _)) (ix2 p u) = _
  rw [minimumf_apply, shapeCast_self, addf_apply, pay2_at, Cert.LibColumn.shapeCast_a_a1_apply, minLanes_apply]
  unfold tileRow
  refine congrArg (fun v => min (prev (ix2 p u)) (sq x p + v)) (congrArg minOver (funext fun c => ?_))
  rw [subf_apply, broadcastTo_1b_ab_apply, transpose_ix2_apply, pay3_at, mulf_apply, broadcast_apply, pay4_at]
  rfl

/-- The column block the step writes: this tile's column values over this block's rows. -/
theorem pay6_at (x : FVec Ideal S2048x64 .f32) (y : FVec Ideal S1024x64 .f32) (u0 u1 : Fin 1) (c : Fin 1024) :
    k0_pay6 (F := Ideal) x y (ix3 u0 u1 c) = tileCol x y c := by
  unfold k0_pay6
  show shapeCast S1x1x1024 (addf (transpose S1x1024 [1, 0] (k0_pay3 (F := Ideal) y) _) (shapeCast S1x1024 (multiReduction .minimumf [0] S1024
    (subf (broadcastTo S2048x1024 (k0_pay2 (F := Ideal) x) _)
      (mulf (broadcast S2048x1024 (Scalar.ofBits .f32 0x40000000#32)) (k0_pay4 (F := Ideal) x y))) 0x7F800000#32 _ _ _) _)) _ (ix3 u0 u1 c) = _
  rw [shapeCast_ab_1ab_apply, addf_apply, transpose_ix2_apply, pay3_at, shapeCast_a_1a_apply, minRows_apply]
  unfold tileCol
  refine congrArg (fun v => sq y c + v) (congrArg minOver (funext fun p => ?_))
  rw [subf_apply, Cert.LibColumn.broadcastTo_a1_ab_apply, pay2_at, mulf_apply, broadcast_apply, pay4_at]
  rfl

end Cert.Hausdorff.Pay

end
-- ==== Proof.Accum.lean ====
/-
  What the two output blocks hold after each grid step, in terms of the two clouds.

  The grid has 8 × 16 steps; step `t` works on row block `t / 16` of the first cloud (2048 rows) and tile `t % 16` of the
  second (1024 rows): the blocks the step reads are those rows of the clouds. After step `t`
    * the column block holds, at column `q`, the tile's column value against that row block;
    * the running row minima hold, at row `p`, the running minimum from +∞ of the row values of tiles `0 … t % 16` —
      by induction on the tile number: a block's first tile updates the +∞ fill, a later tile updates what the step
      before left (the same row block, the previous tile).
-/
import proofs.«151713_j1580547968037_2_alg».proof.Proof.Gen.KernelIdeal.Frame
import proofs.«151713_j1580547968037_2_alg».proof.Proof.Pieces
import proofs.«151713_j1580547968037_2_alg».proof.Proof.PayAt
import Idealize.ShloMosaic.Lib.Pipeline.Value

set_option maxRecDepth 16384

noncomputable section

namespace Cert.Hausdorff.Accum

open Idealize.ShloMosaic Idealize.ShloMosaic.TcCoe Idealize.SL.Sem Idealize.ShloMosaic.ValueIdx
open Idealize.ShloMosaic.Pipeline (Dat)
open Cert.KernelIdeal Cert.KernelIdeal.Gen Cert.Hausdorff

variable (m : (ℓ : Loc nD τ sig) → Buf (Elt Ideal) ℓ)

/-- The two clouds, as the region finds them. -/
abbrev cloudX (c : Dev nD) : Cloud := V m c main_arg0
abbrev cloudY (c : Dev nD) : Cloud := V m c main_arg1

/-- Step `t` reads row block `t / 16` of the first cloud and tile `t % 16` of the second. -/
theorem idx0 : ∀ t : Fin cfg0.N, win0_0.index t (0 : Fin 2) = t.val / 16 ∧ win0_0.index t (1 : Fin 2) = 0 :=
  (by decide +kernel : ∀ t : Fin grid0.N, win0_0.index t (0 : Fin 2) = t.val / 16 ∧ win0_0.index t (1 : Fin 2) = 0)
theorem idx1 : ∀ t : Fin cfg0.N, win0_1.index t (0 : Fin 2) = t.val % 16 ∧ win0_1.index t (1 : Fin 2) = 0 :=
  (by decide +kernel : ∀ t : Fin grid0.N, win0_1.index t (0 : Fin 2) = t.val % 16 ∧ win0_1.index t (1 : Fin 2) = 0)

theorem iblk0_eq (c : Dev nD) (t : Fin cfg0.N) :
    (iblk m c 0 t : FVec Ideal S2048x64 .f32) = rowBlock (cloudX m c) (t.val / 16) := by
  have hN : t.val < 128 := lt_of_lt_of_eq t.isLt (show cfg0.N = 128 from N_0)
  funext y
  unfold iblk rowBlock
  rw [View.read_apply]
  show V m c main_arg0 _ = V m c main_arg0 _
  refine congrArg (V m c main_arg0) (funext fun a => Fin.ext ?_)
  match a with
  | ⟨0, _⟩ =>
    show win0_0.index t 0 * 2048 + 1 * (y 0).val = (t.val / 16 % 8) * 2048 + (y 0).val
    rw [(idx0 t).1]; omega
  | ⟨1, _⟩ =>
    show win0_0.index t 1 * 64 + 1 * (y 1).val = (y 1).val
    rw [(idx0 t).2]; omega

theorem iblk1_eq (c : Dev nD) (t : Fin cfg0.N) :
    (iblk m c 1 t : FVec Ideal S1024x64 .f32) = rowTileOf (cloudY m c) (t.val % 16) := by
  funext y
  unfold iblk rowTileOf
  rw [View.read_apply]
  show V m c main_arg1 _ = V m c main_arg1 _
  refine congrArg (V m c main_arg1) (funext fun a => Fin.ext ?_)
  match a with
  | ⟨0, _⟩ =>
    show win0_1.index t 0 * 1024 + 1 * (y 0).val = (t.val % 16 % 16) * 1024 + (y 0).val
    rw [(idx1 t).1]; omega
  | ⟨1, _⟩ =>
    show win0_1.index t 1 * 64 + 1 * (y 1).val = (y 1).val
    rw [(idx1 t).2]; omega

/-- After step `t` the column block holds the tile's column values against the step's row block. -/
theorem outs3_at (c : Dev nD) (t : Fin cfg0.N) (u0 u1 : Fin 1) (q : Fin 1024) :
    (outsAt0 m c t.val t.isLt).2 (ix3 u0 u1 q)
      = tileCol (rowBlock (cloudX m c) (t.val / 16)) (rowTileOf (cloudY m c) (t.val % 16)) q := by
  by_cases h0 : t.val % 16 = 0
  · rw [outsAt0_A m c t h0]
    dsimp only
    refine (congrFun (Pieces.out_A_3 (F := Ideal) c (grid0.coords t) (ms0_0 t) (hs0_0 t) (ms0_1 t) (hs0_1 t) (ms0_2 t) (hs0_2 t)
      (ms0_3 t) (hs0_3 t) ((hcond0_0 t).mpr h0) (iblk m c 0 t) (iblk m c 1 t)) (ix3 u0 u1 q)).trans ?_
    refine (Pay.pay6_at (iblk m c 0 t) (iblk m c 1 t) u0 u1 q).trans ?_
    rw [iblk0_eq m c t, iblk1_eq m c t]
  · rw [outsAt0_B m c t h0]
    dsimp only
    refine (congrFun (Pieces.out_B_3 (F := Ideal) c (grid0.coords t) (ms0_0 t) (hs0_0 t) (ms0_1 t) (hs0_1 t) (ms0_2 t) (hs0_2 t)
      (ms0_3 t) (hs0_3 t) (fun h => h0 ((hcond0_0 t).mp h)) (iblk m c 0 t) (iblk m c 1 t)
      (outsAt0 m c (t.val - 1) (Nat.lt_of_le_of_lt (Nat.sub_le _ _) t.isLt)).1) (ix3 u0 u1 q)).trans ?_
    refine (Pay.pay6_at (iblk m c 0 t) (iblk m c 1 t) u0 u1 q).trans ?_
    rw [iblk0_eq m c t, iblk1_eq m c t]

/-- After step `t` of row block `b`, tile `j`, the running row minima hold the running minimum over tiles `0 … j`. -/
theorem outs2_at (c : Dev nD) (b : ℕ) (p : Fin 2048) (u : Fin 1) (j : ℕ) :
    ∀ t : Fin cfg0.N, t.val / 16 = b → t.val % 16 = j →
      (outsAt0 m c t.val t.isLt).1 (ix2 p u) = rowAcc (cloudX m c) (cloudY m c) b p j := by
  induction j with
  | zero =>
    intro t hb hj
    rw [outsAt0_A m c t hj]
    dsimp only
    refine (congrFun (Pieces.out_A_2 (F := Ideal) c (grid0.coords t) (ms0_0 t) (hs0_0 t) (ms0_1 t) (hs0_1 t) (ms0_2 t) (hs0_2 t)
      (ms0_3 t) (hs0_3 t) ((hcond0_0 t).mpr hj) (iblk m c 0 t) (iblk m c 1 t)) (ix2 p u)).trans ?_
    refine (Pay.pay5_at (iblk m c 0 t) (iblk m c 1 t) (k0_pay1 (F := Ideal)) p u).trans ?_
    rw [Pay.pay1_at, iblk0_eq m c t, iblk1_eq m c t, hb, hj]
    rfl
  | succ j ih =>
    intro t hb hj
    have hN : t.val < 128 := lt_of_lt_of_eq t.isLt (show cfg0.N = 128 from N_0)
    have h0 : ¬t.val % 16 = 0 := by omega
    have ht : t.val - 1 < cfg0.N := Nat.lt_of_le_of_lt (Nat.sub_le _ _) t.isLt
    have IH := ih ⟨t.val - 1, ht⟩ (by show (t.val - 1) / 16 = b; omega) (by show (t.val - 1) % 16 = j; omega)
    rw [outsAt0_B m c t h0]
    dsimp only
    refine (congrFun (Pieces.out_B_2 (F := Ideal) c (grid0.coords t) (ms0_0 t) (hs0_0 t) (ms0_1 t) (hs0_1 t) (ms0_2 t) (hs0_2 t)
      (ms0_3 t) (hs0_3 t) (fun h => h0 ((hcond0_0 t).mp h)) (iblk m c 0 t) (iblk m c 1 t)
      (outsAt0 m c (t.val - 1) ht).1) (ix2 p u)).trans ?_
    refine (Pay.pay5_at (iblk m c 0 t) (iblk m c 1 t) (outsAt0 m c (t.val - 1) ht).1 p u).trans ?_
    rw [iblk0_eq m c t, iblk1_eq m c t, hb, hj]
    exact congrArg (fun v => min v (tileRow (rowBlock (cloudX m c) b) (rowTileOf (cloudY m c) (j + 1)) p)) IH

end Cert.Hausdorff.Accum

end
-- ==== Proof.Final.lean ====
/-
  The two result arrays after the last grid step, as functions of the two clouds.

  The column array (8 × 1 × 16384) is written back at every step: step `t` writes the block at row block `t / 16`,
  columns `(t % 16)·1024 …`; so entry (b, 0, n) ends as the column value of column `n % 1024` of tile `n / 1024`
  against row block `b`. The array of running row minima (16384 × 1) is written back only after a row block's last
  tile (the steps ≡ 15 mod 16): entry (r, 0) ends as the running minimum over all 16 tiles for row `r % 2048` of row
  block `r / 2048`. Every entry of either array lies in exactly such a block, so the arrays end as these functions.
-/
import proofs.«151713_j1580547968037_2_alg».proof.Proof.Accum

set_option maxRecDepth 16384

noncomputable section

namespace Cert.Hausdorff.Final

open Idealize.ShloMosaic Idealize.ShloMosaic.TcCoe Idealize.SL.Sem Idealize.ShloMosaic.ValueIdx
open Idealize.ShloMosaic.Pipeline (Dat)
open Cert.KernelIdeal Cert.KernelIdeal.Gen Cert.Hausdorff Cert.Hausdorff.Accum

/-- The column array: at (b, 0, n) the column value of column `n % 1024` of tile `n / 1024` against row block `b`. -/
def colArr (X Y : Cloud) : S8x1x16384.Idx → EReal := fun i =>
  tileCol (rowBlock X (i 0).val) (rowTileOf Y ((i 2).val / 1024)) ⟨(i 2).val % 1024, Nat.mod_lt _ (by decide)⟩

/-- The array of row minima: at (r, 0) the running minimum over all 16 tiles for row `r % 2048` of row block `r / 2048`. -/
def rowArr (X Y : Cloud) : S16384x1.Idx → EReal := fun i =>
  rowAcc X Y ((i 0).val / 2048) ⟨(i 0).val % 2048, Nat.mod_lt _ (by decide)⟩ 15

theorem colArr_at (X Y : Cloud) (b j : ℕ) (q : Fin 1024) (i : S8x1x16384.Idx) (h0 : (i 0).val = b)
    (h2 : (i 2).val = j * 1024 + q.val) : colArr X Y i = tileCol (rowBlock X b) (rowTileOf Y j) q := by
  have e3 : (i 2).val / 1024 = j := by have := q.isLt; omega
  have e4 : (⟨(i 2).val % 1024, Nat.mod_lt _ (by decide)⟩ : Fin 1024) = q := Fin.ext (by
    show (i 2).val % 1024 = q.val
    have := q.isLt; omega)
  unfold colArr
  dsimp only
  rw [h0, e3, e4]

theorem rowArr_at (X Y : Cloud) (b : ℕ) (p : Fin 2048) (i : S16384x1.Idx) (h0 : (i 0).val = b * 2048 + p.val) :
    rowArr X Y i = rowAcc X Y b p 15 := by
  have e3 : (i 0).val / 2048 = b := by have := p.isLt; omega
  have e4 : (⟨(i 0).val % 2048, Nat.mod_lt _ (by decide)⟩ : Fin 2048) = p := Fin.ext (by
    show (i 0).val % 2048 = p.val
    have := p.isLt; omega)
  unfold rowArr
  dsimp only
  rw [e3, e4]

variable (m : (ℓ : Loc nD τ sig) → Buf (Elt Ideal) ℓ)

/-- Where the two output windows' blocks sit, decided over the grid. -/
theorem idx2 : ∀ t : Fin cfg0.N, win0_2.index t (0 : Fin 2) = t.val / 16 ∧ win0_2.index t (1 : Fin 2) = 0 :=
  (by decide +kernel : ∀ t : Fin grid0.N, win0_2.index t (0 : Fin 2) = t.val / 16 ∧ win0_2.index t (1 : Fin 2) = 0)
theorem idx3 : ∀ t : Fin cfg0.N, win0_3.index t (0 : Fin 3) = t.val / 16 ∧ win0_3.index t (1 : Fin 3) = 0
    ∧ win0_3.index t (2 : Fin 3) = t.val % 16 :=
  (by decide +kernel : ∀ t : Fin grid0.N, win0_3.index t (0 : Fin 3) = t.val / 16 ∧ win0_3.index t (1 : Fin 3) = 0
    ∧ win0_3.index t (2 : Fin 3) = t.val % 16)

/-! ## The column array -/

theorem blk3_entry (c : Dev nD) (t : Fin cfg0.N) (y : S1x1x1024.Idx) :
    (outsAt0 m c t.val t.isLt).2 y = colArr (cloudX m c) (cloudY m c) (((cfg0.win 3).blk t).view.emb y) := by
  obtain ⟨u0, u1, q, rfl⟩ : ∃ (u0 : Fin 1) (u1 : Fin 1) (q : Fin 1024), y = ix3 u0 u1 q := ⟨y 0, y 1, y 2, eq_ix3 y⟩
  obtain ⟨e0, e1, e2⟩ := idx3 t
  refine (outs3_at m c t u0 u1 q).trans (colArr_at _ _ _ _ q _ ?_ ?_).symm
  · show win0_3.index t (0 : Fin 3) * 1 + 1 * u0.val = t.val / 16
    rw [e0]; omega
  · show win0_3.index t (2 : Fin 3) * 1024 + 1 * q.val = t.val % 16 * 1024 + q.val
    rw [e2]; omega

theorem flushed3_eq (c : Dev nD) (t : Fin cfg0.N) :
    (dats m 0 c).flushed 3 t = ((cfg0.win 3).blk t).view.read (Elt Ideal) (colArr (cloudX m c) (cloudY m c)) := by
  show (cfg0.win 3).cut (grid0.coords t) ((dats m 0 c).after 3 t) = _
  rw [after0_3]
  funext y
  exact blk3_entry m c t y

theorem mem_blk3 (t : Fin cfg0.N) (i : S8x1x16384.Idx) :
    i ∈ ((cfg0.win 3).blk t).view.set ↔ ∀ a : Fin 3, win0_3.index t a * S1x1x1024.size a ≤ (i a).val
      ∧ (i a).val < win0_3.index t a * S1x1x1024.size a + S1x1x1024.size a := by
  show i ∈ ((View.whole main_v0_1).slice (win0_3.rect t)).set ↔ _
  rw [View.set_slice_whole, Rect.mem_set_unit]
  exact Iff.rfl

theorem cover3 (i : S8x1x16384.Idx) : ∃ t : Fin cfg0.N, (cfg0.win 3).flush t = true ∧ i ∈ ((cfg0.win 3).blk t).view.set := by
  have h0 : (i 0).val < 8 := (i 0).isLt
  have h1 : (i 1).val < 1 := (i 1).isLt
  have h2 : (i 2).val < 16384 := (i 2).isLt
  have hN : cfg0.N = 128 := N_0
  let t : Fin cfg0.N := ⟨(i 0).val * 16 + (i 2).val / 1024, by rw [hN]; omega⟩
  have htv : t.val = (i 0).val * 16 + (i 2).val / 1024 := rfl
  obtain ⟨e0, e1, e2⟩ := idx3 t
  refine ⟨t, flush0_3 t, (mem_blk3 t i).2 fun a => ?_⟩
  match a with
  | ⟨0, _⟩ =>
    show win0_3.index t (0 : Fin 3) * 1 ≤ (i 0).val ∧ (i 0).val < win0_3.index t (0 : Fin 3) * 1 + 1
    rw [e0, htv]; omega
  | ⟨1, _⟩ =>
    show win0_3.index t (1 : Fin 3) * 1 ≤ (i 1).val ∧ (i 1).val < win0_3.index t (1 : Fin 3) * 1 + 1
    rw [e1]; omega
  | ⟨2, _⟩ =>
    show win0_3.index t (2 : Fin 3) * 1024 ≤ (i 2).val ∧ (i 2).val < win0_3.index t (2 : Fin 3) * 1024 + 1024
    rw [e2, htv]; omega

/-- The column array after the last step. -/
theorem final3 (c : Dev nD) : (dats m 0 c).arrAt 3 cfg0.N = colArr (cloudX m c) (cloudY m c) :=
  (dats m 0 c).arrAt_eq_of_cover 3 (colArr (cloudX m c) (cloudY m c)) (fun t _ => flushed3_eq m c t) cover3

/-! ## The array of row minima -/

theorem blk2_entry (c : Dev nD) (t : Fin cfg0.N) (h15 : t.val % 16 = 15) (y : S2048x1.Idx) :
    (outsAt0 m c t.val t.isLt).1 y = rowArr (cloudX m c) (cloudY m c) (((cfg0.win 2).blk t).view.emb y) := by
  obtain ⟨p, u, rfl⟩ : ∃ (p : Fin 2048) (u : Fin 1), y = ix2 p u := ⟨y 0, y 1, eq_ix2 y⟩
  obtain ⟨e0, e1⟩ := idx2 t
  refine (outs2_at m c (t.val / 16) p u 15 t rfl h15).trans (rowArr_at _ _ _ p _ ?_).symm
  show win0_2.index t (0 : Fin 2) * 2048 + 1 * p.val = t.val / 16 * 2048 + p.val
  rw [e0]; omega

theorem flushed2_eq (c : Dev nD) (t : Fin cfg0.N) (hf : (cfg0.win 2).flush t = true) :
    (dats m 0 c).flushed 2 t = ((cfg0.win 2).blk t).view.read (Elt Ideal) (rowArr (cloudX m c) (cloudY m c)) := by
  have h15 : t.val % 16 = 15 := (flush0_2 t).mp hf
  show (cfg0.win 2).cut (grid0.coords t) ((dats m 0 c).after 2 t) = _
  rw [after0_2]
  funext y
  exact blk2_entry m c t h15 y

theorem mem_blk2 (t : Fin cfg0.N) (i : S16384x1.Idx) :
    i ∈ ((cfg0.win 2).blk t).view.set ↔ ∀ a : Fin 2, win0_2.index t a * S2048x1.size a ≤ (i a).val
      ∧ (i a).val < win0_2.index t a * S2048x1.size a + S2048x1.size a := by
  show i ∈ ((View.whole main_v0_0).slice (win0_2.rect t)).set ↔ _
  rw [View.set_slice_whole, Rect.mem_set_unit]
  exact Iff.rfl

theorem cover2 (i : S16384x1.Idx) : ∃ t : Fin cfg0.N, (cfg0.win 2).flush t = true ∧ i ∈ ((cfg0.win 2).blk t).view.set := by
  have h0 : (i 0).val < 16384 := (i 0).isLt
  have h1 : (i 1).val < 1 := (i 1).isLt
  have hN : cfg0.N = 128 := N_0
  let t : Fin cfg0.N := ⟨(i 0).val / 2048 * 16 + 15, by rw [hN]; omega⟩
  have htv : t.val = (i 0).val / 2048 * 16 + 15 := rfl
  obtain ⟨e0, e1⟩ := idx2 t
  refine ⟨t, (flush0_2 t).mpr (by rw [htv]; omega), (mem_blk2 t i).2 fun a => ?_⟩
  match a with
  | ⟨0, _⟩ =>
    show win0_2.index t (0 : Fin 2) * 2048 ≤ (i 0).val ∧ (i 0).val < win0_2.index t (0 : Fin 2) * 2048 + 2048
    rw [e0, htv]; omega
  | ⟨1, _⟩ =>
    show win0_2.index t (1 : Fin 2) * 1 ≤ (i 1).val ∧ (i 1).val < win0_2.index t (1 : Fin 2) * 1 + 1
    rw [e1]; omega

/-- The array of row minima after the last step. -/
theorem final2 (c : Dev nD) : (dats m 0 c).arrAt 2 cfg0.N = rowArr (cloudX m c) (cloudY m c) :=
  (dats m 0 c).arrAt_eq_of_cover 2 (rowArr (cloudX m c) (cloudY m c)) (flushed2_eq m c) cover2

end Cert.Hausdorff.Final

end
-- ==== Proof.Mean.lean ====
/-
  The last step both programs share: the mean of one vector of 16384 distances plus the mean of another.

  Each mean is the sum from zero divided by the single-precision word of 16384.0; the two means are added. Both
  programs apply exactly these operations, with exactly these words, to their two vectors of least distances, so the
  step is kept as ONE function of the two vectors: equal vectors in, equal results out, and it is never opened.
-/
import Idealize.ShloMosaic.PureOps.Ideal
import Idealize.ShloMosaic.PureOps

noncomputable section

namespace Cert.Hausdorff

open Idealize.ShloMosaic

theorem redVec : (⟨1, ![16384]⟩ : Shape).ReducesTo [0] ⟨0, ![]⟩ := by decide
theorem posScalar : 0 < (⟨0, ![]⟩ : Shape).numel := by decide

/-- `mean a + mean b` over 16384 entries each, as the host operations spell it. -/
def meanSum (a b : FVec Ideal ⟨1, ![16384]⟩ .f32) : FVec Ideal ⟨0, ![]⟩ .f32 :=
  addf
    (Host.divf (F := Ideal) (Host.reduceAdd (F := Ideal) a (constant (F := Ideal) ⟨0, ![]⟩ .f32 0x00000000#32) redVec posScalar)
      (constant (F := Ideal) ⟨0, ![]⟩ .f32 0x46800000#32))
    (Host.divf (F := Ideal) (Host.reduceAdd (F := Ideal) b (constant (F := Ideal) ⟨0, ![]⟩ .f32 0x00000000#32) redVec posScalar)
      (constant (F := Ideal) ⟨0, ![]⟩ .f32 0x46800000#32))

end Cert.Hausdorff

end
-- ==== Proof.Tail.lean ====
/-
  What the kernel's program returns, in terms of its two result arrays.

  After the grid the program takes the array of running row minima as a vector, and the minimum of the column array
  over its 8 row blocks; clamps each at zero and takes roots; and returns the mean of the one plus the mean of the
  other. The operations after the grid read the two result arrays as the grid left them, so the returned value is the
  shared last step applied to the two vectors formed from the two final arrays.
-/
import proofs.«151713_j1580547968037_2_alg».proof.Proof.Final
import proofs.«151713_j1580547968037_2_alg».proof.Proof.Mean
import Idealize.ShloMosaic.Lib.StableHlo.Run
import Idealize.ShloMosaic.Lib.Tactic

set_option maxRecDepth 16384

noncomputable section

namespace Cert.Hausdorff.Tail

open Idealize.ShloMosaic Idealize.ShloMosaic.TcCoe Idealize.SL.Sem Idealize.ShloMosaic.ValueIdx Idealize.ShloMosaic.StableHlo
open Idealize.ShloMosaic.Pipeline (Dat)
open Cert.KernelIdeal Cert.KernelIdeal.Gen Cert.Hausdorff Cert.Hausdorff.Accum Cert.Hausdorff.Final

/-- The vector of distances from the first cloud's points: the column of row minima, clamped and rooted. -/
def rowVecK (a2 : FVec Ideal S16384x1 .f32) : FVec Ideal S16384 .f32 :=
  Host.sqrt (F := Ideal) (maximumf (shapeCast S16384 a2 shapeCasts_S16384x1_S16384)
    (broadcastInDim S16384 ![] bcast_S_S16384 (constant (F := Ideal) S_ .f32 0x00000000#32)))

/-- The vector of distances from the second cloud's points: the least over the 8 row blocks, clamped and rooted. -/
def colVecK (a3 : FVec Ideal S8x1x16384 .f32) : FVec Ideal S16384 .f32 :=
  Host.sqrt (F := Ideal) (maximumf
    (Host.reduce FloatOps.minimumf (shapeCast S8x16384 a3 shapeCasts_S8x1x16384_S8x16384)
      (constant (F := Ideal) S_ .f32 0x7F800000#32) reducesTo_S8x16384_S16384_d0 h_S_)
    (broadcastInDim S16384 ![] bcast_S_S16384 (constant (F := Ideal) S_ .f32 0x00000000#32)))

variable (m : (ℓ : Loc nD τ sig) → Buf (Elt Ideal) ℓ)

/-- The returned value: the shared last step of the two vectors formed from the two final arrays. -/
theorem tail_value (c : Dev nD) :
    Pipeline.afterTail₀ cfgs (dats m) 0 (V0 m) [hostOps1] c main_v14
      = meanSum (rowVecK (rowArr (cloudX m c) (cloudY m c))) (colVecK (colArr (cloudX m c) (cloudY m c))) := by
  have e2 : Pipeline.withArrays (cfgs 0).spec c (V0 m c) (fun w => (dats m 0 c).arrAt w (cfgs 0).N) (Proc.devRef .tc main_v0_0)
      = rowArr (cloudX m c) (cloudY m c) :=
    (Pipeline.withArrays_arr spec0 launch0.win.arr_inj c _ _ 2).trans (final2 m c)
  have e3 : Pipeline.withArrays (cfgs 0).spec c (V0 m c) (fun w => (dats m 0 c).arrAt w (cfgs 0).N) (Proc.devRef .tc main_v0_1)
      = colArr (cloudX m c) (cloudY m c) :=
    (Pipeline.withArrays_arr spec0 launch0.win.arr_inj c _ _ 3).trans (final3 m c)
  unfold Pipeline.afterTail₀
  show StableHlo.after hostOps1 _ (Proc.devRef .tc main_v14) = _
  after_results
  rw [e2, e3]
  rfl

end Cert.Hausdorff.Tail

end
-- ==== Proof.KernelRun.lean ====
/-
  The run of the kernel's program over the extended reals, with its returned value named.

  Every weakly fair execution terminates without a fault; afterwards the result buffer holds the shared last step of the
  two vectors formed from the two final arrays (the value read after the grid), and the two argument arrays are as
  they were (an input array of the grid is never written).
-/
import proofs.«151713_j1580547968037_2_alg».proof.Proof.Tail

set_option maxRecDepth 16384

noncomputable section

namespace Cert.Hausdorff.Run

open Idealize.ShloMosaic Idealize.ShloMosaic.TcCoe Idealize.SL.Sem
open Idealize.ShloMosaic.Pipeline (Dat)
open Cert.KernelIdeal Cert.KernelIdeal.Gen Cert.Hausdorff Cert.Hausdorff.Accum Cert.Hausdorff.Final Cert.Hausdorff.Tail

variable (m : (ℓ : Loc nD τ sig) → Buf (Elt Ideal) ℓ) (ρ : Dev nD → PrngReg)

/-- The value the program returns on core `c`. -/
abbrev result (c : Dev nD) : Buf (Elt Ideal) ((c.tc : Thread nD τ).loc main_v14) :=
  meanSum (rowVecK (rowArr (cloudX m c) (cloudY m c))) (colVecK (colArr (cloudX m c) (cloudY m c)))

theorem run : θ_run (defs (F := Ideal)) (onTc (τ := τ) (main (F := Ideal))) ⟨m, fun _ => 0, ρ⟩ (fun r => ∀ c : Dev nD,
      r.2.mem ((c.tc : Thread nD τ).loc main_v14) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨((h c).2 main_v14 (Pipeline.mem_restRefs_of main_v14 rfl (by decide))).trans (tail_value m c),
       ((h c).1 0).trans (((dats m 0 c).arrAt_in 0 rfl _).trans ((A_eq m c 0).trans (V_main_arg0 m c))),
       ((h c).1 1).trans (((dats m 0 c).arrAt_in 1 rfl _).trans ((A_eq m c 1).trans (V_main_arg1 m c)))⟩)
    (run_main m ρ)

end Cert.Hausdorff.Run

end
-- ==== Proof.KTail.lean ====
/-
  The two vectors the kernel's program forms from its two result arrays before it averages them.

  From the running row minima `a2` (a 16384 × 1 column) it takes the column as a vector, clamps at zero and takes the
  root: at `r` that is `clampSqrt (a2 (r, 0))`. From the column blocks `a3` (8 × 1 × 16384: one row of column values per
  row block) it drops the unit axis, takes the minimum over the 8 row blocks from +∞, clamps and takes the root: at `n`
  that is `clampSqrt` of the least of `a3 (b, 0, n)` over `b`.
-/
import proofs.«151713_j1580547968037_2_alg».proof.Proof.Gen.KernelIdeal
import proofs.«151713_j1580547968037_2_alg».proof.Proof.Spec
import Idealize.ShloMosaic.Lib.ValueLayout
import Idealize.ShloMosaic.Lib.Pipeline.Value
import Idealize.ShloMosaic.PureOps.Ideal.Laws
import Idealize.ShloMosaic.PureOps.Reduce

noncomputable section

namespace Cert.Hausdorff.KTail

open Idealize.ShloMosaic Idealize.ShloMosaic.ValueIdx Cert.KernelIdeal Cert.Hausdorff

/-- The index of the 8 × 16384 array over column `n` whose block coordinate is `b` is (b, n). -/
theorem lift_block (hR : S8x16384.Reduces [0] S16384) (n : Fin 16384) (b : Fin 8) : hR.lift (ix1 n) b = ix2 b n :=
  funext fun a => Fin.ext (by match a with | ⟨0, _⟩ => rfl | ⟨1, _⟩ => rfl)

/-- Dropping the unit axis: (b, n) of the 8 × 16384 array and (b, 0, n) of the 8 × 1 × 16384 array sit at the same
    row-major position, b · 16384 + n. -/
theorem cast_block (a3 : FVec Ideal S8x1x16384 .f32) (h : S8x1x16384.ShapeCasts S8x16384) (b : Fin 8) (n : Fin 16384) :
    shapeCast S8x16384 a3 h (ix2 b n) = a3 (ix3 b (0 : Fin 1) n) :=
  shapeCast_apply a3 h (ix2 b n) (ix3 b (0 : Fin 1) n) (by
    rw [Shape.rowMajor_val_three, Shape.rowMajor_val_two]
    show (b.val * 1 + 0) * 16384 + n.val = b.val * 16384 + n.val
    omega)

/-- The row vector: the column of running minima, clamped and rooted. -/
theorem rowVec_at (a2 : FVec Ideal S16384x1 .f32) (h : S16384x1.ShapeCasts S16384)
    (hb : S_.BroadcastsInDim S16384 (![] : Fin 0 → Fin S16384.rank)) (r : Fin 16384) :
    Host.sqrt (F := Ideal) (maximumf (shapeCast S16384 a2 h)
        (broadcastInDim S16384 ![] hb (constant (F := Ideal) S_ .f32 0x00000000#32))) (ix1 r)
      = clampSqrt (a2 (ix2 r (0 : Fin 1))) := by
  show FloatOps.hostUnary .sqrt (FloatOps.maximumf (shapeCast S16384 a2 h (ix1 r))
      (broadcastInDim S16384 ![] hb (constant (F := Ideal) S_ .f32 0x00000000#32) (ix1 r))) = _
  rw [shapeCast_apply a2 h (ix1 r) (ix2 r (0 : Fin 1)) (by
        rw [Shape.rowMajor_val_two, Shape.rowMajor_val_one]
        show r.val * 1 + 0 = r.val
        omega),
    broadcastInDim_apply _ hb _ (ix1 r) (fun a => a.elim0) (fun a => a.elim0)]
  show Ideal.sqrt (max (a2 (ix2 r 0)) (Ideal.ofBits .f32 0x00000000#32)) = _
  rw [Ideal.ofBits_zero_f32]
  rfl

/-- The column vector: the least over the 8 row blocks, clamped and rooted. -/
theorem colVec_at (a3 : FVec Ideal S8x1x16384 .f32) (h : S8x1x16384.ShapeCasts S8x16384)
    (hr : S8x16384.ReducesTo [0] S16384) (hS : 0 < S_.numel)
    (hb : S_.BroadcastsInDim S16384 (![] : Fin 0 → Fin S16384.rank)) (n : Fin 16384) :
    Host.sqrt (F := Ideal) (maximumf
        (Host.reduce FloatOps.minimumf (shapeCast S8x16384 a3 h) (constant (F := Ideal) S_ .f32 0x7F800000#32) hr hS)
        (broadcastInDim S16384 ![] hb (constant (F := Ideal) S_ .f32 0x00000000#32))) (ix1 n)
      = clampSqrt (minOver fun b : Fin 8 => a3 (ix3 b (0 : Fin 1) n)) := by
  show FloatOps.hostUnary .sqrt (FloatOps.maximumf
      (Host.reduce FloatOps.minimumf (shapeCast S8x16384 a3 h) (constant (F := Ideal) S_ .f32 0x7F800000#32) hr hS (ix1 n))
      (broadcastInDim S16384 ![] hb (constant (F := Ideal) S_ .f32 0x00000000#32) (ix1 n))) = _
  rw [Host.reduce_eq_fold_single FloatOps.minimumf _ _ hr (by decide) hS,
    broadcastInDim_apply _ hb _ (ix1 n) (fun a => a.elim0) (fun a => a.elim0)]
  rw [constant_apply, constant_apply, Ideal.ofBits_zero_f32, ofBits_inf_f32]
  unfold clampSqrt minOver
  refine congrArg (fun v : EReal => Ideal.sqrt (max v 0)) ?_
  exact Finset.fold_congr fun b _ =>
    (congrArg (shapeCast S8x16384 a3 h) (lift_block _ n b)).trans (cast_block a3 h b n)

end Cert.Hausdorff.KTail

end
-- ==== Proof.RefSide.lean ====
/-
  The reference program, read as mathematics.

  The reference forms the 16384 × 16384 matrix  d(r, n) = √(max((|X_r|² + |Y_n|²) − 2·X_r·Y_n, 0))  and takes its
  minimum along each row and along each column, each from +∞.  This file shows that the matrix entry at (r, n) is the
  clamped root of the expanded squared distance, and that the two vectors of minima are the specification's.
-/
import proofs.«151713_j1580547968037_2_alg».proof.Proof.Spec
import proofs.«151713_j1580547968037_2_alg».proof.Proof.Gen.ReferenceIdeal.Read
import Idealize.ShloMosaic.PureOps.Ideal.Laws
import Idealize.ShloMosaic.PureOps.Reduce
import Idealize.ShloMosaic.Lib.ValueIdx

noncomputable section

namespace Cert.Hausdorff.Ref

open Cert.ReferenceIdeal Cert.ReferenceIdeal.Gen Cert.ReferenceIdeal.Read Idealize.ShloMosaic Idealize.ShloMosaic.ValueIdx

/-- The matrix entry at (r, n): the clamped root of the expanded squared distance between X_r and Y_n. -/
theorem ref_dist (x0 x1 : (⟨S16384x64, .f32⟩ : BufTy).Contents (Elt Ideal)) (r n : Fin 16384) :
    val_main_v15 (F := Ideal) x0 x1 (ix2 r n) = clampSqrt (dist2 x0 x1 r n) := by
  rw [val_main_v15_apply, val_main_v14_apply, val_main_v12_apply, val_main_v9_apply, val_main_v7_apply,
    val_main_v5_apply, val_main_v1_apply, val_main_v8_apply, val_main_v6_apply, val_main_v3_apply,
    val_main_v11_apply, val_main_v10_apply, val_main_cst_1_apply, val_main_v4_apply, val_main_v13_apply,
    val_main_cst_2_apply, val_main_cst_apply, val_main_cst_0_apply]
  have e0 : ∀ k : Fin 64, idx_main_v1 (idx_main_v5 (idx_main_v7 (ix2 r n))) k = ix2 r k := fun k =>
    funext fun a => Fin.ext (by match a with | ⟨0, _⟩ => rfl | ⟨1, _⟩ => rfl)
  have e1 : ∀ k : Fin 64, idx_main_v3 (idx_main_v6 (idx_main_v8 (ix2 r n))) k = ix2 n k := fun k =>
    funext fun a => Fin.ext (by match a with | ⟨0, _⟩ => rfl | ⟨1, _⟩ => rfl)
  have el : ∀ k : Fin 64, lidx_main_v4 (ix2 r n) k = ix2 r k := fun k =>
    funext fun a => Fin.ext (by match a with | ⟨0, _⟩ => rfl | ⟨1, _⟩ => rfl)
  have er : ∀ k : Fin 64, ridx_main_v4 (ix2 r n) k = ix2 n k := fun k =>
    funext fun a => Fin.ext (by match a with | ⟨0, _⟩ => rfl | ⟨1, _⟩ => rfl)
  simp only [e0, e1, el, er, val_main_v0_apply, val_main_v2_apply, Ideal.mulf_def, Ideal.addf_def, Ideal.subf_def,
    Ideal.maximumf_def, Ideal.hostUnary_sqrt_def, Ideal.ofBits_def, Ideal.ofBits_zero_f32, zero_add]
  rfl

/-- The index over row `r` whose column coordinate is `n` is (r, n). -/
theorem lift_row (h : S16384x16384.Reduces [1] S16384) (r n : Fin 16384) : h.lift (ix1 r) n = ix2 r n :=
  funext fun a => Fin.ext (by match a with | ⟨0, _⟩ => rfl | ⟨1, _⟩ => rfl)

/-- The index over column `n` whose row coordinate is `r` is (r, n). -/
theorem lift_col (h : S16384x16384.Reduces [0] S16384) (n r : Fin 16384) : h.lift (ix1 n) r = ix2 r n :=
  funext fun a => Fin.ext (by match a with | ⟨0, _⟩ => rfl | ⟨1, _⟩ => rfl)

/-- The minimum along row `r` of the matrix, from +∞, is the least distance from X_r to the cloud Y. -/
theorem ref_rows (x0 x1 : (⟨S16384x64, .f32⟩ : BufTy).Contents (Elt Ideal)) (r : Fin 16384) :
    val_main_v16 (F := Ideal) x0 x1 (ix1 r) = rowRes x0 x1 r := by
  unfold val_main_v16
  rw [Host.reduce_eq_fold_single FloatOps.minimumf _ _ reducesTo_S16384x16384_S16384_d1 (by decide) h_S_]
  rw [val_main_cst_3_apply, Ideal.ofBits_def, ofBits_inf_f32]
  unfold rowRes minOver
  exact Finset.fold_congr fun n _ =>
    (congrArg (val_main_v15 (F := Ideal) x0 x1) (lift_row _ r n)).trans (ref_dist x0 x1 r n)

/-- The minimum along column `n` of the matrix, from +∞, is the least distance from Y_n to the cloud X. -/
theorem ref_cols (x0 x1 : (⟨S16384x64, .f32⟩ : BufTy).Contents (Elt Ideal)) (n : Fin 16384) :
    val_main_v19 (F := Ideal) x0 x1 (ix1 n) = colRes x0 x1 n := by
  unfold val_main_v19
  rw [Host.reduce_eq_fold_single FloatOps.minimumf _ _ reducesTo_S16384x16384_S16384_d0 (by decide) h_S_]
  rw [val_main_cst_6_apply, Ideal.ofBits_def, ofBits_inf_f32]
  unfold colRes minOver
  exact Finset.fold_congr fun r _ =>
    (congrArg (val_main_v15 (F := Ideal) x0 x1) (lift_col _ n r)).trans (ref_dist x0 x1 r n)

end Cert.Hausdorff.Ref

end
-- ==== Proof.Result.lean ====
/-
  The kernel's program and the reference return the same number.

  Both return the shared last step (mean plus mean) of two vectors of 16384 least distances. The kernel's row vector
  at `r` is the clamp and root of the running minimum over all 16 tiles for row `r % 2048` of row block `r / 2048`, which
  the row law identifies with the least distance from point `r` of the first cloud to the second cloud: the reference's
  row vector at `r`. The kernel's column vector at `n` is the clamp and root of the least, over the 8 row blocks, of
  the column values of column `n % 1024` of tile `n / 1024`, which the column law identifies with the least distance
  from point `n` of the second cloud to the first: the reference's column vector at `n`.
-/
import proofs.«151713_j1580547968037_2_alg».proof.Proof.Tail
import proofs.«151713_j1580547968037_2_alg».proof.Proof.KTail
import proofs.«151713_j1580547968037_2_alg».proof.Proof.RefSide

noncomputable section

namespace Cert.Hausdorff.Result

open Idealize.ShloMosaic Idealize.ShloMosaic.ValueIdx Cert.Hausdorff Cert.Hausdorff.Final Cert.Hausdorff.Tail

/-- Row `r` is row `r % 2048` of row block `r / 2048`; row `n` is row `n % 1024` of tile `n / 1024`. -/
theorem blockRow_div_mod (r : Fin 16384) : blockRow (r.val / 2048) ⟨r.val % 2048, Nat.mod_lt _ (by decide)⟩ = r :=
  Fin.ext (by
    show (r.val / 2048 % 8) * 2048 + r.val % 2048 = r.val
    have := r.isLt; omega)
theorem tileRowIdx_div_mod (n : Fin 16384) : tileRowIdx (n.val / 1024) ⟨n.val % 1024, Nat.mod_lt _ (by decide)⟩ = n :=
  Fin.ext (by
    show (n.val / 1024 % 16) * 1024 + n.val % 1024 = n.val
    have := n.isLt; omega)

/-- The kernel's row vector is the vector of least distances from the first cloud's points. -/
theorem rowVec_at (X Y : Cloud) (r : Fin 16384) : rowVecK (rowArr X Y) (ix1 r) = rowRes X Y r := by
  unfold rowVecK
  rw [Cert.Hausdorff.KTail.rowVec_at]
  show clampSqrt (rowAcc X Y (r.val / 2048) ⟨r.val % 2048, Nat.mod_lt _ (by decide)⟩ 15) = rowRes X Y r
  rw [clampSqrt_rowAcc, blockRow_div_mod]

/-- The kernel's column vector is the vector of least distances from the second cloud's points. -/
theorem colVec_at (X Y : Cloud) (n : Fin 16384) : colVecK (colArr X Y) (ix1 n) = colRes X Y n := by
  unfold colVecK
  rw [Cert.Hausdorff.KTail.colVec_at]
  show clampSqrt (colAcc X Y (n.val / 1024) ⟨n.val % 1024, Nat.mod_lt _ (by decide)⟩) = colRes X Y n
  rw [clampSqrt_colAcc, tileRowIdx_div_mod]

theorem rows_agree (X Y : Cloud) : rowVecK (rowArr X Y) = Cert.ReferenceIdeal.Read.val_main_v16 (F := Ideal) X Y := by
  funext i
  obtain ⟨r, rfl⟩ : ∃ r : Fin 16384, i = ix1 r := ⟨i 0, eq_ix1 i⟩
  rw [rowVec_at, Cert.Hausdorff.Ref.ref_rows]

theorem cols_agree (X Y : Cloud) : colVecK (colArr X Y) = Cert.ReferenceIdeal.Read.val_main_v19 (F := Ideal) X Y := by
  funext i
  obtain ⟨n, rfl⟩ : ∃ n : Fin 16384, i = ix1 n := ⟨i 0, eq_ix1 i⟩
  rw [colVec_at, Cert.Hausdorff.Ref.ref_cols]

/-- The reference's result is the shared last step of its two vectors. -/
theorem ref_result (X Y : Cloud) :
    Cert.ReferenceIdeal.Read.val_main_v22 (F := Ideal) X Y
      = meanSum (Cert.ReferenceIdeal.Read.val_main_v16 (F := Ideal) X Y) (Cert.ReferenceIdeal.Read.val_main_v19 (F := Ideal) X Y) := rfl

/-- So the two programs' results agree. -/
theorem result_agree (X Y : Cloud) :
    meanSum (rowVecK (rowArr X Y)) (colVecK (colArr X Y)) = Cert.ReferenceIdeal.Read.val_main_v22 (F := Ideal) X Y := by
  rw [rows_agree, cols_agree, ref_result]

end Cert.Hausdorff.Result

end
-- ==== Proof.lean ====
/-
  The averaged Hausdorff distance of two clouds of 16384 points in 64 dimensions: a tiled kernel against its plain
  definition, over the extended reals.

  The reference forms every distance  d(r, n) = √(max((|X_r|² + |Y_n|²) − 2·X_r·Y_n, 0)),  takes the minimum along each
  row and along each column, and returns the mean of the row minima plus the mean of the column minima. The kernel never
  forms the matrix: on an 8 × 16 grid it visits 2048 rows of X against 1024 rows of Y at a time; for the rows it keeps a
  running minimum over the 16 tiles of (|X_r|² + the tile's least |Y_n|² − 2·X_r·Y_n), for the columns it writes, per row
  block, (|Y_n|² + the block's least |X_r|² − 2·X_r·Y_n), and only after the grid takes the minimum over the 8 row
  blocks, clamps at zero, takes roots and averages. The two agree because adding a fixed number and x ↦ √(max(x, 0)) are
  monotone, so each commutes with a minimum over a nonempty finite family, and because sums of extended reals may be
  regrouped; a minimum over all 16384 columns is the minimum over tiles of the minima over a tile's columns, and likewise
  for rows and row blocks. No finiteness of the inputs is needed for the value; the change of float format before the
  matrix product is the identity over the extended reals.

  The three programs run (terminate without a fault and leave their arguments unchanged): the two kernel programs by the
  generated frame, the reference by its generated run. The idealization rewrote nothing, so there is nothing to preserve.
-/
import proofs.«151713_j1580547968037_2_alg».proof.Defs
import proofs.«151713_j1580547968037_2_alg».proof.Proof.Gen.Kernel
import proofs.«151713_j1580547968037_2_alg».proof.Proof.Gen.Kernel.Skeleton
import proofs.«151713_j1580547968037_2_alg».proof.Proof.Gen.Kernel.Launch
import proofs.«151713_j1580547968037_2_alg».proof.Proof.Gen.Kernel.Points
import proofs.«151713_j1580547968037_2_alg».proof.Proof.Gen.Kernel.Frame
import proofs.«151713_j1580547968037_2_alg».proof.Proof.Gen.KernelIdeal
import proofs.«151713_j1580547968037_2_alg».proof.Proof.Gen.KernelIdeal.Skeleton
import proofs.«151713_j1580547968037_2_alg».proof.Proof.Gen.KernelIdeal.Launch
import proofs.«151713_j1580547968037_2_alg».proof.Proof.Gen.KernelIdeal.Points
import proofs.«151713_j1580547968037_2_alg».proof.Proof.Gen.KernelIdeal.Frame
import proofs.«151713_j1580547968037_2_alg».proof.Proof.Gen.ReferenceIdeal
import proofs.«151713_j1580547968037_2_alg».proof.Proof.Gen.ReferenceIdeal.Run
import proofs.«151713_j1580547968037_2_alg».proof.Proof.Gen.ReferenceIdeal.Read
import proofs.«151713_j1580547968037_2_alg».proof.Proof.Gen.Pre_finite_inputs
import proofs.«151713_j1580547968037_2_alg».proof.Proof.KernelRun
import proofs.«151713_j1580547968037_2_alg».proof.Proof.Result
import Idealize.ShloMosaic.Adequacy
import Idealize.ShloMosaic.Init

noncomputable section

namespace Cert.Proof

open Idealize.ShloMosaic Idealize.SL.Sem

/-- The kernel as printed runs and keeps its arguments. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference runs and keeps its arguments: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the two clouds, both programs end at the same number: the kernel at the shared last step
    of its two vectors, the reference at the same step of its own, and the vectors are equal entry by entry. -/
theorem algebraic : Cert.algebraic_KernelIdeal_ReferenceIdeal := by
  intro m ρ m' ρ' _ hagree
  refine ⟨fun c => Cert.Hausdorff.Run.result m c, Cert.Hausdorff.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, (hagree c).1, (hagree c).2]
  exact (Cert.Hausdorff.Result.result_agree (Cert.Hausdorff.Accum.cloudX m c) (Cert.Hausdorff.Accum.cloudY m c)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
